-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x4096 : Shape := ⟨3, ![8, 16, 4096]⟩
abbrev S4096x4096 : Shape := ⟨2, ![4096, 4096]⟩
abbrev S4096 : Shape := ⟨1, ![4096]⟩
abbrev S4096x128 : Shape := ⟨2, ![4096, 128]⟩
abbrev S128x4096 : Shape := ⟨2, ![128, 4096]⟩
abbrev S_ : Shape := ⟨0, ![]⟩

class Facts : Prop where
  bcast_S_S8x16x4096 : S_.BroadcastsInDim S8x16x4096 (![] : Fin 0 → Fin S8x16x4096.rank)
  reducesTo_S8x16x4096_S_d0_1_2 : S8x16x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S4096x128 : S_.BroadcastsInDim S4096x128 (![] : Fin 0 → Fin S4096x128.rank)
  reducesTo_S4096x128_S_d0_1 : S4096x128.ReducesTo [0, 1] S_
  bcast_S_S128x4096 : S_.BroadcastsInDim S128x4096 (![] : Fin 0 → Fin S128x4096.rank)
  reducesTo_S128x4096_S_d0_1 : S128x4096.ReducesTo [0, 1] S_

variable [Facts]

def fn_part1 {F : FTy → Type} [FloatOps F] (main_arg5 : FVec F S4096 .f32) (main_v13 : IVec S_ 1) (main_v16 : IVec S128x4096 1) : IVec S_ 1 :=
  let main_c_5 : IVec S_ 1 := constantI S_ 1 1#1
  let main_v17 : IVec S_ 1 := (fun x v => Host.reduce IntOp.andi x v reducesTo_S128x4096_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S8x16x4096 .f32) (main_arg1 : IVec S4096x4096 32) (main_arg2 : FVec F S4096 .f32) (main_arg3 : FVec F S4096x128 .f32) (main_arg4 : FVec F S128x4096 .f32) (main_arg5 : FVec F S4096 .f32) : IVec S_ 1 :=
  let main_v0 : FVec F S8x16x4096 .f32 := Host.absf main_arg0
  let main_cst : FVec F S_ .f32 := constant S_ .f32 0x7F800000#32
  let main_v1 : FVec F S8x16x4096 .f32 := broadcastInDim S8x16x4096 ![] bcast_S_S8x16x4096 main_cst
  let main_v2 : IVec S8x16x4096 1 := cmpf .olt main_v0 main_v1
  let main_c : IVec S_ 1 := constantI S_ 1 1#1
  let main_v3 : IVec S_ 1 := (fun x v => Host.reduce IntOp.andi x v reducesTo_S8x16x4096_S_d0_1_2 h_S_) main_v2 main_c
  let main_v4 : FVec F S4096 .f32 := Host.absf main_arg2
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x128 .f32 := Host.absf main_arg3
  let main_cst_2 : FVec F S_ .f32 := constant S_ .f32 0x7F800000#32
  let main_v10 : FVec F S4096x128 .f32 := broadcastInDim S4096x128 ![] bcast_S_S4096x128 main_cst_2
  let main_v11 : IVec S4096x128 1 := cmpf .olt main_v9 main_v10
  let main_c_3 : IVec S_ 1 := constantI S_ 1 1#1
  let main_v12 : IVec S_ 1 := (fun x v => Host.reduce IntOp.andi x v reducesTo_S4096x128_S_d0_1 h_S_) main_v11 main_c_3
  let main_v13 : IVec S_ 1 := andi main_v8 main_v12
  let main_v14 : FVec F S128x4096 .f32 := Host.absf main_arg4
  let main_cst_4 : FVec F S_ .f32 := constant S_ .f32 0x7F800000#32
  let main_v15 : FVec F S128x4096 .f32 := broadcastInDim S128x4096 ![] bcast_S_S128x4096 main_cst_4
  let main_v16 : IVec S128x4096 1 := cmpf .olt main_v14 main_v15
  fn_part1 (F := F) main_arg5 main_v13 main_v16
-- ==== Kernel.lean ====
abbrev S8x16x4096 : Shape := ⟨3, ![8, 16, 4096]⟩
abbrev S4096x4096 : Shape := ⟨2, ![4096, 4096]⟩
abbrev S4096 : Shape := ⟨1, ![4096]⟩
abbrev S4096x128 : Shape := ⟨2, ![4096, 128]⟩
abbrev S128x4096 : Shape := ⟨2, ![128, 4096]⟩
abbrev S1024x1024 : Shape := ⟨2, ![1024, 1024]⟩
abbrev S1024 : Shape := ⟨1, ![1024]⟩
abbrev S1024x128 : Shape := ⟨2, ![1024, 128]⟩
abbrev S128x1024 : Shape := ⟨2, ![128, 1024]⟩
abbrev S128x128 : Shape := ⟨2, ![128, 128]⟩
abbrev S1024x1 : Shape := ⟨2, ![1024, 1]⟩
abbrev S1x1024 : Shape := ⟨2, ![1, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8x16x4096, .f32⟩
  | .hbm, ⟨1, _⟩ => ⟨S4096x4096, .i32⟩
  | .hbm, ⟨2, _⟩ => ⟨S4096, .f32⟩
  | .hbm, ⟨3, _⟩ => ⟨S4096x128, .f32⟩
  | .hbm, ⟨4, _⟩ => ⟨S128x4096, .f32⟩
  | .hbm, ⟨5, _⟩ => ⟨S4096, .f32⟩
  | .hbm, ⟨6, _⟩ => ⟨S128x4096, .f32⟩
  | .hbm, ⟨7, _⟩ => ⟨S128x4096, .f32⟩
  | .hbm, ⟨8, _⟩ => ⟨S8x16x4096, .f32⟩
  | .local _ .vmem, ⟨0, _⟩ => ⟨S128x4096, .f32⟩
  | .local _ .vmem, ⟨1, _⟩ => ⟨S1024x1024, .i32⟩
  | .local _ .vmem, ⟨2, _⟩ => ⟨S1024x1024, .i32⟩
  | .local _ .vmem, ⟨3, _⟩ => ⟨S1024, .f32⟩
  | .local _ .vmem, ⟨4, _⟩ => ⟨S1024, .f32⟩
  | .local _ .vmem, ⟨5, _⟩ => ⟨S1024x128, .f32⟩
  | .local _ .vmem, ⟨6, _⟩ => ⟨S1024x128, .f32⟩
  | .local _ .vmem, ⟨7, _⟩ => ⟨S128x4096, .f32⟩
  | .local _ .vmem, ⟨8, _⟩ => ⟨S1024, .f32⟩
  | .local _ .vmem, ⟨9, _⟩ => ⟨S1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x128, .f32⟩
  | _, _ => ⟨S8x16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v9 : BitVec 32 := Scalar.muli arg1 c1024_i32
  v9
def k0_off1 (i : grid0.Coords) : Fin 2 → Nat :=
  let c0_3 : Index := 0#32
  let arg1 : BitVec 32 := BitVec.ofNat 32 (i 1).val
  let c1024_i32 : BitVec 32 := 1024#32
  let v9 : BitVec 32 := Scalar.muli arg1 c1024_i32
  let v10 : BitVec 32 := v9
  let v11 : Index := Scalar.indexCast v10
  ![0, v11.toNat]
def k0_cond2 (i : grid0.Coords) : BitVec 1 :=
  let arg1 : BitVec 32 := BitVec.ofNat 32 (i 1).val
  let c3_i32 : BitVec 32 := 3#32
  let v20 : BitVec 1 := Scalar.cmpi .eq arg1 c3_i32
  let v21 : BitVec 32 := Scalar.extui v20
  let c0_i32_8 : BitVec 32 := 0#32
  let v22 : BitVec 1 := Scalar.cmpi .ne v21 c0_i32_8
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8x16x4096_S128x4096 : S8x16x4096.ShapeCasts S128x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1024x128_S1024x128_0_0 : ∀ a, (![0, 0] : Fin 2 → Nat) a + S1024x128.size a ≤ S1024x128.size a
  h_S1024x128 : 0 < S1024x128.numel
  inb_S128x1024_S128x1024_0_0 : ∀ a, (![0, 0] : Fin 2 → Nat) a + S128x1024.size a ≤ S128x1024.size a
  h_S128x1024 : 0 < S128x1024.numel
  shapeCasts_S128x1024_S128x1024 : S128x1024.ShapeCasts S128x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1024x1 : S1024.ShapeCasts S1024x1
  broadcasts_S1024x1_S1024x1024 : S1024x1.Broadcasts S1024x1024
  shapeCasts_S1024_S1x1024 : S1024.ShapeCasts S1x1024
  broadcasts_S1x1024_S128x1024 : S1x1024.Broadcasts S128x1024
  shapeCasts_S128x4096_S8x16x4096 : S128x4096.ShapeCasts S8x16x4096
  dot_S128x4096_S128x4096_S128x128_1_1_0_0_n_n_wf : DotDims.WF S128x4096 S128x4096 S128x128 [1] [1] [0] [0] [] []
  dot_S128x128_S1024x128_S128x1024_1_1_0_0_n_n_wf : DotDims.WF S128x128 S1024x128 S128x1024 [1] [1] [0] [0] [] []
  dot_S128x1024_S1024x1024_S128x1024_1_1_0_0_n_n_wf : DotDims.WF S128x1024 S1024x1024 S128x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S128x1024.size a ≤ S128x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S128x4096.size a
  hwx0_0 : ∀ i : grid0.Coords, EltTy.bits .f32 = 32 ∨ (Rect.block (s := S128x4096) S128x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .i32 = 32 ∨ (Rect.block (s := S4096x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S4096.size a
  hwx0_2 : ∀ i : grid0.Coords, EltTy.bits .f32 = 32 ∨ (Rect.block (s := S4096) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x128.size a ≤ S4096x128.size a
  hwx0_3 : ∀ i : grid0.Coords, EltTy.bits .f32 = 32 ∨ (Rect.block (s := S4096x128) S1024x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S128x4096.size a
  hwx0_4 : ∀ i : grid0.Coords, EltTy.bits .f32 = 32 ∨ (Rect.block (s := S128x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S4096.size a
  hwx0_5 : ∀ i : grid0.Coords, EltTy.bits .f32 = 32 ∨ (Rect.block (s := S4096) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x1024.size a ≤ S128x4096.size a
  hwx0_6 : ∀ i : grid0.Coords, EltTy.bits .f32 = 32 ∨ (Rect.block (s := S128x4096) S128x1024.size (cc0_transform_6 i) (hinb0_6 i)).WholeWords (EltTy.packing .f32)

variable [Facts₀]

def dot_S128x4096_S128x4096_S128x128_1_1_0_0_n_n : DotDims S128x4096 S128x4096 S128x128 where
  lhsContracting := [1]
  rhsContracting := [1]
  lhsNonContracting := [0]
  rhsNonContracting := [0]
  lhsBatch := []
  rhsBatch := []
  wf := dot_S128x4096_S128x4096_S128x128_1_1_0_0_n_n_wf
def dot_S128x128_S1024x128_S128x1024_1_1_0_0_n_n : DotDims S128x128 S1024x128 S128x1024 where
  lhsContracting := [1]
  rhsContracting := [1]
  lhsNonContracting := [0]
  rhsNonContracting := [0]
  lhsBatch := []
  rhsBatch := []
  wf := dot_S128x128_S1024x128_S128x1024_1_1_0_0_n_n_wf
def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf

abbrev win0_0 : Pipeline.Window sig grid0 :=
  Pipeline.Window.ofSpec (Memref.whole main_v0) S128x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S128x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8x16x4096 : Shape := ⟨3, ![8, 16, 4096]⟩
abbrev S4096x4096 : Shape := ⟨2, ![4096, 4096]⟩
abbrev S4096 : Shape := ⟨1, ![4096]⟩
abbrev S4096x128 : Shape := ⟨2, ![4096, 128]⟩
abbrev S128x4096 : Shape := ⟨2, ![128, 4096]⟩
abbrev S4096x1 : Shape := ⟨2, ![4096, 1]⟩
abbrev S1x1x4096 : Shape := ⟨3, ![1, 1, 4096]⟩

abbrev nBuf : Space → Nat
  | .hbm => 16
  | .vmem => 0
  | .smem => 0
  | _ => 0

abbrev bufTy : (tb : Table) → Fin (tcTables nBuf tb) → BufTy
  | .hbm, ⟨0, _⟩ => ⟨S8x16x4096, .f32⟩
  | .hbm, ⟨1, _⟩ => ⟨S4096x4096, .i32⟩
  | .hbm, ⟨2, _⟩ => ⟨S4096, .f32⟩
  | .hbm, ⟨3, _⟩ => ⟨S4096x128, .f32⟩
  | .hbm, ⟨4, _⟩ => ⟨S128x4096, .f32⟩
  | .hbm, ⟨5, _⟩ => ⟨S4096, .f32⟩
  | .hbm, ⟨6, _⟩ => ⟨S4096x4096, .f32⟩
  | .hbm, ⟨7, _⟩ => ⟨S4096x1, .f32⟩
  | .hbm, ⟨8, _⟩ => ⟨S4096x4096, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S8x16x4096, .f32⟩
  | .hbm, ⟨13, _⟩ => ⟨S1x1x4096, .f32⟩
  | .hbm, ⟨14, _⟩ => ⟨S8x16x4096, .f32⟩
  | .hbm, ⟨15, _⟩ => ⟨S8x16x4096, .f32⟩
  | _, _ => ⟨S8x16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S8x16x4096_0_1_2 : S1x1x4096.BroadcastsInDim S8x16x4096 (![0, 1, 2] : Fin 3 → Fin S8x16x4096.rank)
  dot_S4096x128_S128x4096_S4096x4096_1_0_0_1_n_n_wf : DotDims.WF S4096x128 S128x4096 S4096x4096 [1] [0] [0] [1] [] []
  dot_S8x16x4096_S4096x4096_S8x16x4096_2_1_01_0_n_n_wf : DotDims.WF S8x16x4096 S4096x4096 S8x16x4096 [2] [1] [0, 1] [0] [] []

variable [Facts₀]

def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def dot_S8x16x4096_S4096x4096_S8x16x4096_2_1_01_0_n_n : DotDims S8x16x4096 S4096x4096 S8x16x4096 where
  lhsContracting := [2]
  rhsContracting := [1]
  lhsNonContracting := [0, 1]
  rhsNonContracting := [0]
  lhsBatch := []
  rhsBatch := []
  wf := dot_S8x16x4096_S4096x4096_S8x16x4096_2_1_01_0_n_n_wf

class Facts : Prop extends Facts₀ where

variable [Facts]
-- ==== Proof.CaseValues.lean ====
/-
  What each control case of the kernel body leaves behind, as values.

  The body runs in one of three cases, decided by the position `k` of the grid point along the axis of
  input tiles. At the first tile (`k = 0`) it seeds the accumulator with the low-rank part in factored form
  and then adds this tile's dequantized product; at a middle tile it adds its product to the accumulator it
  found; at the last tile (`k = 3`) it does the same and then writes the accumulator plus the bias to the
  output block. The frame run records, per case, the stores it found; read back, they are the body's pure
  terms applied to the blocks: that is all this module says.
-/
import proofs.«156089_j46007689674786_2_alg».proof.Proof.Gen.KernelIdeal.Frame
import Idealize.ShloMosaic.Lib.Pipeline.Value
import Idealize.ShloMosaic.Lib.Tactic

set_option maxRecDepth 16384

noncomputable section

namespace Cert.KernelIdeal.Cases

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl
theorem hz1 : (![0] : Fin 1 → Nat) = fun _ => 0 := funext fun a => by fin_cases a; rfl

/-- The columns of the resident activations that belong to the point's input tile: a `[128, 1024]` slice
    starting at column `1024 k`. -/
abbrev xtile (i : grid0.Coords) (x0 : Vec F S128x4096 .f32) : Vec F S128x1024 .f32 :=
  View.ld x0 (Rect.unit (s := S128x4096) (k0_off1 i) S128x1024.size (Cert.KernelIdeal.Facts₀.k0_off1_inb i))

/-- A middle tile: the accumulator found, plus this tile's dequantized product. -/
theorem acc_mid (c : Dev nD) (i : grid0.Coords) (arg2 : Memref sig .tc .vmem S128x4096 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024x128 .f32) (harg5 : arg5.IsWhole) (arg6 : Memref sig .tc .vmem S128x4096 .f32) (harg6 : arg6.IsWhole) (arg7 : Memref sig .tc .vmem S1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x128 .f32) (harg10 : arg10.IsWhole) (hc0 : ¬cond0_0 i) (hc1 : ¬cond0_1 i) (x0 : Vec F S128x4096 .f32) (x1 : Vec F S1024x1024 .i32) (x2 : Vec F S1024 .f32) (x3 : Vec F S1024x128 .f32) (x4 : Vec F S128x4096 .f32) (x5 : Vec F S1024 .f32) (xs0 : Vec F S128x1024 .f32) :
    sout0_B_0 c i arg2 harg2 arg3 harg3 arg4 harg4 arg5 harg5 arg6 harg6 arg7 harg7 arg8 harg8 arg9 harg9 arg10 harg10 hc0 hc1 x0 x1 x2 x3 x4 x5 xs0 = k0_pay4 x1 x2 (xtile i x0) xs0 := by
  unfold sout0_B_0
  rw [View.read_writes_eq_canon _ _ _ (scover0_B_0 c i arg2 harg2 arg3 harg3 arg4 harg4 arg5 harg5 arg6 harg6 arg7 harg7 arg8 harg8 arg9 harg9 arg10 harg10 hc0 hc1 x0 x1 x2 x3 x4 x5 xs0)]
  unfold kernelRun0_B
  dsimp only
  rw [View.canon_unit_zero hz]
  simp only [View.readAt_eq_ld, harg2.read_unread, harg3.read_unread, harg4.read_unread, harg9.read_unread,
    View.ld_unit_zero (S := S1024x1024) hz, View.ld_unit_zero (S := S1024) hz1, View.ld_unit_zero (S := S128x1024) hz]

/-- The last tile leaves the same in the accumulator. -/
theorem acc_last (c : Dev nD) (i : grid0.Coords) (arg2 : Memref sig .tc .vmem S128x4096 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024x128 .f32) (harg5 : arg5.IsWhole) (arg6 : Memref sig .tc .vmem S128x4096 .f32) (harg6 : arg6.IsWhole) (arg7 : Memref sig .tc .vmem S1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x128 .f32) (harg10 : arg10.IsWhole) (hc0 : ¬cond0_0 i) (hc1 : cond0_1 i) (x0 : Vec F S128x4096 .f32) (x1 : Vec F S1024x1024 .i32) (x2 : Vec F S1024 .f32) (x3 : Vec F S1024x128 .f32) (x4 : Vec F S128x4096 .f32) (x5 : Vec F S1024 .f32) (xs0 : Vec F S128x1024 .f32) :
    sout0_C_0 c i arg2 harg2 arg3 harg3 arg4 harg4 arg5 harg5 arg6 harg6 arg7 harg7 arg8 harg8 arg9 harg9 arg10 harg10 hc0 hc1 x0 x1 x2 x3 x4 x5 xs0 = k0_pay4 x1 x2 (xtile i x0) xs0 := by
  unfold sout0_C_0
  rw [View.read_writes_eq_canon _ _ _ (scover0_C_0 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg9.read_unread,
    View.ld_unit_zero (S := S1024x1024) hz, View.ld_unit_zero (S := S1024) hz1, View.ld_unit_zero (S := S128x1024) hz]
  rfl

/-- The last tile writes to the output block the accumulator it has just updated, plus the bias. -/
theorem out_last (c : Dev nD) (i : grid0.Coords) (arg2 : Memref sig .tc .vmem S128x4096 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024x128 .f32) (harg5 : arg5.IsWhole) (arg6 : Memref sig .tc .vmem S128x4096 .f32) (harg6 : arg6.IsWhole) (arg7 : Memref sig .tc .vmem S1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x128 .f32) (harg10 : arg10.IsWhole) (hc0 : ¬cond0_0 i) (hc1 : cond0_1 i) (x0 : Vec F S128x4096 .f32) (x1 : Vec F S1024x1024 .i32) (x2 : Vec F S1024 .f32) (x3 : Vec F S1024x128 .f32) (x4 : Vec F S128x4096 .f32) (x5 : Vec F S1024 .f32) (xs0 : Vec F S128x1024 .f32) :
    out0_C_6 c i arg2 harg2 arg3 harg3 arg4 harg4 arg5 harg5 arg6 harg6 arg7 harg7 arg8 harg8 arg9 harg9 arg10 harg10 hc0 hc1 x0 x1 x2 x3 x4 x5 xs0 = k0_pay5 (k0_pay4 x1 x2 (xtile i x0) xs0) x5 := by
  unfold out0_C_6
  rw [View.read_writes_eq_canon _ _ _ (cover0_C_6 c i arg2 harg2 arg3 harg3 arg4 harg4 arg5 harg5 arg6 harg6 arg7 harg7 arg8 harg8 arg9 harg9 arg10 harg10 hc0 hc1 x0 x1 x2 x3 x4 x5 xs0)]
  unfold kernelRun0_C
  dsimp only
  sl_unfold_words
  rw [View.canon_unit_zero hz, View.readCov_unit_zero (S := S128x1024) _ hz]
  simp only [View.readAt_eq_ld, harg2.read_unread, harg3.read_unread, harg4.read_unread, harg7.read_unread, harg9.read_unread,
    View.ld_unit_zero (S := S1024x1024) hz, View.ld_unit_zero (S := S1024) hz1, View.ld_unit_zero (S := S128x1024) hz]
  rfl

/-- The first tile: the accumulator is seeded with the factored low-rank part, read back, and this tile's
    dequantized product is added to it. -/
theorem acc_first (c : Dev nD) (i : grid0.Coords) (arg2 : Memref sig .tc .vmem S128x4096 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024x128 .f32) (harg5 : arg5.IsWhole) (arg6 : Memref sig .tc .vmem S128x4096 .f32) (harg6 : arg6.IsWhole) (arg7 : Memref sig .tc .vmem S1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x128 .f32) (harg10 : arg10.IsWhole) (hc0 : cond0_0 i) (hc1 : ¬cond0_1 i) (x0 : Vec F S128x4096 .f32) (x1 : Vec F S1024x1024 .i32) (x2 : Vec F S1024 .f32) (x3 : Vec F S1024x128 .f32) (x4 : Vec F S128x4096 .f32) (x5 : Vec F S1024 .f32) :
    sout0_A_0 c i arg2 harg2 arg3 harg3 arg4 harg4 arg5 harg5 arg6 harg6 arg7 harg7 arg8 harg8 arg9 harg9 arg10 harg10 hc0 hc1 x0 x1 x2 x3 x4 x5 = k0_pay4 x1 x2 (xtile i x0) (k0_pay3 x0 x4 x3) := by
  unfold sout0_A_0
  rw [View.read_writes_eq_canon _ _ _ (scover0_A_0 c i arg2 harg2 arg3 harg3 arg4 harg4 arg5 harg5 arg6 harg6 arg7 harg7 arg8 harg8 arg9 harg9 arg10 harg10 hc0 hc1 x0 x1 x2 x3 x4 x5)]
  unfold kernelRun0_A
  dsimp only
  sl_unfold_words
  rw [View.canon_cons_unit_zero (S := S128x1024) hz, View.readCov_unit_zero (S := S128x1024) _ hz]
  simp only [View.readAt_eq_ld, harg2.read_unread, harg3.read_unread, harg4.read_unread, harg5.read_unread, harg6.read_unread,
    View.ld_unit_zero (S := S1024x1024) hz, View.ld_unit_zero (S := S1024) hz1, View.ld_unit_zero (S := S128x4096) hz,
    View.ld_unit_zero (S := S1024x128) hz]
  rfl

end Cert.KernelIdeal.Cases

end
-- ==== Proof.LibMatmulRowsRead.lean ====
/-
  A matrix product of two arrays that share their SECOND axis, read entry by entry.

  A product that contracts the second axis of an `[a, k]` array with the second axis of a `[b, k]` array,
  started from the zero accumulator, reads at `(p, q)` the inner product of row `p` of the first with row `q`
  of the second: the sum over `d` of the left operand at `(p, d)` times the right operand at `(q, d)`. (This is
  the product of the first array with the transpose of the second, with no transpose written.)
  The record of dimension numbers is any one whose six axis lists are those of this contraction; at a literal
  record each of the six hypotheses is `rfl`.
-/
import Idealize.ShloMosaic.PureOps.Ideal.Laws
import Idealize.ShloMosaic.Lib.Pipeline.Value
import Idealize.ShloMosaic.Lib.ValueIdx

namespace Idealize.ShloMosaic.ValueIdx

open Idealize.ShloMosaic

/-- A product contracting the second axis of the left operand with the second axis of the right one, from the zero
    accumulator, read at `(p, q)`: the inner product of row `p` of the left operand with row `q` of the right one. -/
theorem matmul_rows_ix2_apply {a k b : ℕ} {φ₁ φ₂ : FTy} (D : DotDims ⟨2, ![a, k]⟩ ⟨2, ![b, k]⟩ ⟨2, ![a, b]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (x : FVec Ideal ⟨2, ![a, k]⟩ φ₁) (w : FVec Ideal ⟨2, ![b, k]⟩ φ₂)
    (p : Fin a) (q : Fin b) :
    matmul D prec x w (constant (F := Ideal) ⟨2, ![a, b]⟩ .f32 0x00000000#32) (ix2 p q)
      = ∑ d : Fin k, x (ix2 p d) * w (ix2 q d) := by
  obtain ⟨lc, rc, ln, rn, lb, rb, wf⟩ := D
  dsimp only at hlc hrc hln hrn hlb hrb
  subst hlc hrc hln hrn hlb hrb
  refine (Ideal.matmul_constant_zero_apply _ prec x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => rfl
    | ⟨1, _⟩ => exact (DotDims.rhsIdx_val_of_single _ rfl _ _).trans (contrEquiv1_symm_val _ k rfl rfl d)

end Idealize.ShloMosaic.ValueIdx
-- ==== Proof.LibColumnLayout.lean ====
/-
  A column kept as a unit axis, read at an index given by coordinates.

  A reduction over the last axis of an `[a, b]` array that keeps that axis (a row maximum or a row sum with the
  reduced axis retained) produces an `[a]` vector, casts it to the column `[a, 1]` and broadcasts the column back
  over the `b` entries of each row. Two facts say what those two steps do to an entry:
    • the vector cast to a column reads, at `(p, u)`, the vector at `p`, whatever the unit coordinate `u`;
    • the column broadcast over `b` columns reads, at `(p, c)`, the column at `(p, 0)`.
  Both are the general shape-cast and broadcast readings with the coordinates' arithmetic done once.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit
    coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.PayloadRead.lean ====
/-
  The arithmetic of the kernel's body, read at one entry.

  The body computes five pure values. Read at an entry (p, q) each is a plain formula over extended reals:
    • the first is the product of the activations with the second low-rank factor, contracting the feature axis:
      at (p, r) the sum over features i of x(p, i) · B(r, i);
    • the third multiplies that by a tile of the first low-rank factor: at (p, q) the sum over ranks r of
      (the first value at (p, r)) · At(q, r);
    • the fourth adds to the running accumulator the product of a tile of activations with the dequantized
      weights: the weights are the integers converted to reals and scaled row by row, the scale being a
      vector cast to a column and repeated along each row;
    • the fifth adds the bias, a vector cast to a row and repeated down each column.
  Casts of a shape to itself change nothing.
-/
import proofs.«156089_j46007689674786_2_alg».proof.Proof.Gen.KernelIdeal.Skeleton
import proofs.«156089_j46007689674786_2_alg».proof.Proof.LibMatmulRowsRead
import proofs.«156089_j46007689674786_2_alg».proof.Proof.LibColumnLayout
import Idealize.ShloMosaic.Lib.ValueLayout
import Idealize.ShloMosaic.Lib.Pipeline.Value
import Idealize.ShloMosaic.Lib.ValueIdx
import Idealize.ShloMosaic.PureOps.Ideal.Laws

namespace Cert.KernelIdeal.Payload

open Cert.KernelIdeal Cert.KernelIdeal.Gen Idealize.ShloMosaic Idealize.ShloMosaic.ValueIdx

/-- The first product at (p, r): row p of the activations against row r of the second low-rank factor. -/
theorem pay1_apply (x B : Vec Ideal S128x4096 .f32) (p r : Fin 128) :
    k0_pay1 (F := Ideal) x B (ix2 p r) = ∑ i : Fin 4096, x (ix2 p i) * B (ix2 r i) := by
  unfold k0_pay1
  refine (matmul_rows_ix2_apply _ rfl rfl rfl rfl rfl rfl _ _ _ p r).trans ?_
  rw [shapeCast_self]

/-- The low-rank update at (p, q): the first product's row p against row q of the first low-rank factor's tile. -/
theorem pay3_apply (x B : Vec Ideal S128x4096 .f32) (At : Vec Ideal S1024x128 .f32) (p : Fin 128) (q : Fin 1024) :
    k0_pay3 (F := Ideal) x B At (ix2 p q)
      = ∑ r : Fin 128, (∑ i : Fin 4096, x (ix2 p i) * B (ix2 r i)) * At (ix2 q r) := by
  unfold k0_pay3
  rw [shapeCast_self]
  refine (matmul_rows_ix2_apply _ rfl rfl rfl rfl rfl rfl _ _ _ p q).trans ?_
  refine Finset.sum_congr rfl fun r _ => ?_
  rw [pay1_apply]

/-- One tile's step at (p, q): the accumulator plus the tile of activations against the dequantized weights'
    row q, each weight being the integer as a real times the scale of its row. -/
theorem pay4_apply (wq : Vec Ideal S1024x1024 .i32) (sc : Vec Ideal S1024 .f32) (xt acc : Vec Ideal S128x1024 .f32)
    (p : Fin 128) (q : Fin 1024) :
    k0_pay4 (F := Ideal) wq sc xt acc (ix2 p q)
      = acc (ix2 p q) + ∑ j : Fin 1024, xt (ix2 p j) * ((((wq (ix2 q j)).toInt : ℝ) : EReal) * sc (ix1 q)) := by
  unfold k0_pay4
  rw [shapeCast_self, shapeCast_self]
  refine (addf_apply _ _ _).trans ?_
  refine congrArg (acc (ix2 p q) + ·) ?_
  refine (matmul_rows_ix2_apply _ rfl rfl rfl rfl rfl rfl _ _ _ p q).trans ?_
  refine Finset.sum_congr rfl fun j _ => congrArg (xt (ix2 p j) * ·) ?_
  refine (mulf_apply _ _ _).trans ?_
  refine congrArg₂ (· * ·) rfl ?_
  refine (broadcastTo_a1_ab_apply _ _ q j).trans ?_
  exact shapeCast_a_a1_apply _ _ q 0

/-- The last step at (p, q): the accumulator plus the bias of column q. -/
theorem pay5_apply (acc : Vec Ideal S128x1024 .f32) (bias : Vec Ideal S1024 .f32) (p : Fin 128) (q : Fin 1024) :
    k0_pay5 (F := Ideal) acc bias (ix2 p q) = acc (ix2 p q) + bias (ix1 q) := by
  unfold k0_pay5
  refine (addf_apply _ _ _).trans ?_
  refine congrArg (acc (ix2 p q) + ·) ?_
  refine (broadcastTo_1b_ab_apply _ _ p q).trans ?_
  exact shapeCast_a_1a_apply _ _ 0 q

end Cert.KernelIdeal.Payload
-- ==== Proof.Spec.lean ====
/-
  What the fused kernel computes, as one function of the argument arrays.

  The layer is `out[m, o] = ∑ᵢ x[m, i] · W[o, i] + bias[o]` with weight
  `W[o, i] = float(wq[o, i]) · scale[o] + ∑ᵣ A[o, r] · B[r, i]`: a dequantized integer matrix plus a
  rank-128 product. The kernel never assembles `W`. For each output entry it starts from the low-rank
  part in factored form, `∑ᵣ (∑ᵢ x[m, i] · B[r, i]) · A[o, r]`, then adds the dequantized product one
  tile of 1024 input features at a time, first tile first, and adds the bias last. The functions below
  say exactly that, in that order of additions, over the flattened activations `x : [128, 4096]`.
-/
import Idealize.ShloMosaic.PureOps.Ideal
import Idealize.ShloMosaic.Lib.ValueIdx

noncomputable section

namespace Cert.Qlora

open Idealize.ShloMosaic Idealize.ShloMosaic.ValueIdx

/-- The activations as given, `[8, 16, 4096]`. -/
abbrev X3 : Shape := ⟨3, ![8, 16, 4096]⟩
/-- The activations flattened to rows, `[128, 4096]`; also the shape of the second low-rank factor. -/
abbrev X2 : Shape := ⟨2, ![128, 4096]⟩
/-- The quantized weight, `[4096, 4096]` (output feature, input feature). -/
abbrev W2 : Shape := ⟨2, ![4096, 4096]⟩
/-- A vector over the output features, `[4096]`: the scales, the bias. -/
abbrev V1 : Shape := ⟨1, ![4096]⟩
/-- The first low-rank factor, `[4096, 128]`. -/
abbrev A2 : Shape := ⟨2, ![4096, 128]⟩

/-- Entry `j` of tile `k` of an axis of 4096 cut into four tiles of 1024: position `1024 k + j`. -/
def col (k : Fin 4) (j : Fin 1024) : Fin 4096 := ⟨1024 * k.val + j.val, by have := k.isLt; have := j.isLt; omega⟩

/-- Row `16 b + s` of the flattened activations. -/
def row (b : Fin 8) (s : Fin 16) : Fin 128 := ⟨16 * b.val + s.val, by have := b.isLt; have := s.isLt; omega⟩

/-- The dequantized weight at (output feature `o`, input feature `i`): the stored integer, read signed,
    times the output feature's scale. -/
def wdq (wq : W2.Idx → BitVec 32) (sc : V1.Idx → EReal) (o i : Fin 4096) : EReal :=
  (((wq (ix2 o i)).toInt : ℝ) : EReal) * sc (ix1 o)

/-- The low-rank part of output entry `(p, o)`, factored: the activations of row `p` projected through
    the second factor, then through row `o` of the first. -/
def lowRank (x : X2.Idx → EReal) (A : A2.Idx → EReal) (B : X2.Idx → EReal) (p : Fin 128) (o : Fin 4096) : EReal :=
  ∑ r : Fin 128, (∑ i : Fin 4096, x (ix2 p i) * B (ix2 r i)) * A (ix2 o r)

/-- What tile `k` of the input features contributes to output entry `(p, o)` through the dequantized weight. -/
def tileTerm (x : X2.Idx → EReal) (wq : W2.Idx → BitVec 32) (sc : V1.Idx → EReal) (p : Fin 128) (o : Fin 4096)
    (k : Fin 4) : EReal :=
  ∑ j : Fin 1024, x (ix2 p (col k j)) * wdq wq sc o (col k j)

/-- Tile number `k mod 4`. -/
def tileOf (k : ℕ) : Fin 4 := ⟨k % 4, Nat.mod_lt _ (by decide)⟩

/-- The accumulator for output entry `(p, o)` after the input tiles `0 … k`: the low-rank part, then the
    tiles' contributions added one after the other. -/
def accAfter (x : X2.Idx → EReal) (wq : W2.Idx → BitVec 32) (sc : V1.Idx → EReal) (A : A2.Idx → EReal)
    (B : X2.Idx → EReal) (p : Fin 128) (o : Fin 4096) : ℕ → EReal
  | 0 => lowRank x A B p o + tileTerm x wq sc p o (tileOf 0)
  | k + 1 => accAfter x wq sc A B p o k + tileTerm x wq sc p o (tileOf (k + 1))

/-- The kernel's output over the flattened rows: the accumulator after the last tile, plus the bias. -/
def out2 (x : X2.Idx → EReal) (wq : W2.Idx → BitVec 32) (sc : V1.Idx → EReal) (A : A2.Idx → EReal)
    (B : X2.Idx → EReal) (bias : V1.Idx → EReal) : X2.Idx → EReal :=
  fun i => accAfter x wq sc A B (i 0) (i 1) 3 + bias (ix1 (i 1))

end Cert.Qlora

end
-- ==== Proof.PointValues.lean ====
/-
  One grid point's effect on one entry of the accumulator and of the output block.

  With `k` the point's input tile: the accumulator's entry `(p, q)` gains
  `∑ⱼ x[p, 1024 k + j] · (float(wq[q, j]) · scale[q])` over the tile's 1024 columns `j`, the weights and the
  scale being the point's blocks; at the first tile it starts from the low-rank part
  `∑ᵣ (∑ᵢ x[p, i] · B[r, i]) · A[q, r]`; at the last tile the output block's entry is the updated accumulator
  plus `bias[q]`. The statements are over arbitrary blocks; the blocks of the actual run are substituted later.
-/
import proofs.«156089_j46007689674786_2_alg».proof.Proof.CaseValues
import proofs.«156089_j46007689674786_2_alg».proof.Proof.PayloadRead
import proofs.«156089_j46007689674786_2_alg».proof.Proof.Spec

noncomputable section

namespace Cert.KernelIdeal.Points

open Cert.KernelIdeal Cert.KernelIdeal.Gen Cert.KernelIdeal.Cases Cert.KernelIdeal.Payload
open Idealize.ShloMosaic Idealize.ShloMosaic.TcCoe Idealize.SL.Sem Idealize.ShloMosaic.ValueIdx Cert.Qlora

/-- The tile's slice of the activations at `(p, j)` is the activations at column `1024 k + j`. -/
theorem xtile_apply (i : grid0.Coords) (k : Fin 4) (hk : (i 1).val = k.val) (x0 : Vec Ideal S128x4096 .f32)
    (p : Fin 128) (j : Fin 1024) : xtile (F := Ideal) i x0 (ix2 p j) = x0 (ix2 p (col k j)) := by
  show x0 _ = x0 _
  refine congrArg x0 (funext fun a => Fin.ext ?_)
  match a with
  | ⟨0, _⟩ =>
    show k0_off1 i 0 + 1 * p.val = p.val
    rw [k0_off1_eq i]
    show 0 + 1 * p.val = p.val
    omega
  | ⟨1, _⟩ =>
    show k0_off1 i 1 + 1 * j.val = 1024 * k.val + j.val
    rw [k0_off1_eq i]
    show 1024 * (i 1).val + 1 * j.val = 1024 * k.val + j.val
    rw [hk]
    omega

/-- What tile `k` adds to entry `(p, q)`, over the point's blocks. -/
def tileSum (k : Fin 4) (x0 : Vec Ideal S128x4096 .f32) (x1 : Vec Ideal S1024x1024 .i32) (x2 : Vec Ideal S1024 .f32)
    (p : Fin 128) (q : Fin 1024) : EReal :=
  ∑ j : Fin 1024, x0 (ix2 p (col k j)) * ((((x1 (ix2 q j)).toInt : ℝ) : EReal) * x2 (ix1 q))

/-- The low-rank part of entry `(p, q)`, over the point's blocks. -/
def lowSum (x0 x4 : Vec Ideal S128x4096 .f32) (x3 : Vec Ideal S1024x128 .f32) (p : Fin 128) (q : Fin 1024) : EReal :=
  ∑ r : Fin 128, (∑ i : Fin 4096, x0 (ix2 p i) * x4 (ix2 r i)) * x3 (ix2 q r)

/-- One tile's step on an accumulator entry. -/
theorem step_apply (i : grid0.Coords) (k : Fin 4) (hk : (i 1).val = k.val) (x0 : Vec Ideal S128x4096 .f32)
    (x1 : Vec Ideal S1024x1024 .i32) (x2 : Vec Ideal S1024 .f32) (acc : Vec Ideal S128x1024 .f32) (p : Fin 128) (q : Fin 1024) :
    k0_pay4 (F := Ideal) x1 x2 (xtile i x0) acc (ix2 p q) = acc (ix2 p q) + tileSum k x0 x1 x2 p q := by
  refine (pay4_apply x1 x2 (xtile i x0) acc p q).trans ?_
  refine congrArg (acc (ix2 p q) + ·) (Finset.sum_congr rfl fun j _ => ?_)
  rw [xtile_apply i k hk x0 p j]

variable (c : Dev nD) (i : grid0.Coords) (arg2 : Memref sig .tc .vmem S128x4096 .f32) (harg2 : arg2.IsWhole) (arg3 : Memref sig .tc .vmem S1024x1024 .i32) (harg3 : arg3.IsWhole) (arg4 : Memref sig .tc .vmem S1024 .f32) (harg4 : arg4.IsWhole) (arg5 : Memref sig .tc .vmem S1024x128 .f32) (harg5 : arg5.IsWhole) (arg6 : Memref sig .tc .vmem S128x4096 .f32) (harg6 : arg6.IsWhole) (arg7 : Memref sig .tc .vmem S1024 .f32) (harg7 : arg7.IsWhole) (arg8 : Memref sig .tc .vmem S128x1024 .f32) (harg8 : arg8.IsWhole) (arg9 : Memref sig .tc .vmem S128x1024 .f32) (harg9 : arg9.IsWhole) (arg10 : Memref sig .tc .vmem S128x128 .f32) (harg10 : arg10.IsWhole)

/-- First tile: the low-rank part, plus the tile's product. -/
theorem entry_first (hc0 : cond0_0 i) (hc1 : ¬cond0_1 i) (k : Fin 4) (hk : (i 1).val = k.val)
    (x0 : Vec Ideal S128x4096 .f32) (x1 : Vec Ideal S1024x1024 .i32) (x2 : Vec Ideal S1024 .f32) (x3 : Vec Ideal S1024x128 .f32)
    (x4 : Vec Ideal S128x4096 .f32) (x5 : Vec Ideal S1024 .f32) (p : Fin 128) (q : Fin 1024) :
    sout0_A_0 (F := Ideal) c i arg2 harg2 arg3 harg3 arg4 harg4 arg5 harg5 arg6 harg6 arg7 harg7 arg8 harg8 arg9 harg9 arg10 harg10 hc0 hc1 x0 x1 x2 x3 x4 x5 (ix2 p q)
      = lowSum x0 x4 x3 p q + tileSum k x0 x1 x2 p q := by
  rw [acc_first (F := Ideal) c i arg2 harg2 arg3 harg3 arg4 harg4 arg5 harg5 arg6 harg6 arg7 harg7 arg8 harg8 arg9 harg9 arg10 harg10 hc0 hc1 x0 x1 x2 x3 x4 x5]
  refine (step_apply i k hk x0 x1 x2 (k0_pay3 x0 x4 x3) p q).trans ?_
  rw [pay3_apply x0 x4 x3 p q]
  rfl

/-- A middle tile: the entry found, plus the tile's product. -/
theorem entry_mid (hc0 : ¬cond0_0 i) (hc1 : ¬cond0_1 i) (k : Fin 4) (hk : (i 1).val = k.val)
    (x0 : Vec Ideal S128x4096 .f32) (x1 : Vec Ideal S1024x1024 .i32) (x2 : Vec Ideal S1024 .f32) (x3 : Vec Ideal S1024x128 .f32)
    (x4 : Vec Ideal S128x4096 .f32) (x5 : Vec Ideal S1024 .f32) (xs0 : Vec Ideal S128x1024 .f32) (p : Fin 128) (q : Fin 1024) :
    sout0_B_0 (F := Ideal) c i arg2 harg2 arg3 harg3 arg4 harg4 arg5 harg5 arg6 harg6 arg7 harg7 arg8 harg8 arg9 harg9 arg10 harg10 hc0 hc1 x0 x1 x2 x3 x4 x5 xs0 (ix2 p q)
      = xs0 (ix2 p q) + tileSum k x0 x1 x2 p q := by
  rw [acc_mid (F := Ideal) c i arg2 harg2 arg3 harg3 arg4 harg4 arg5 harg5 arg6 harg6 arg7 harg7 arg8 harg8 arg9 harg9 arg10 harg10 hc0 hc1 x0 x1 x2 x3 x4 x5 xs0]
  exact step_apply i k hk x0 x1 x2 xs0 p q

/-- The last tile, in the accumulator: the same step. -/
theorem entry_last (hc0 : ¬cond0_0 i) (hc1 : cond0_1 i) (k : Fin 4) (hk : (i 1).val = k.val)
    (x0 : Vec Ideal S128x4096 .f32) (x1 : Vec Ideal S1024x1024 .i32) (x2 : Vec Ideal S1024 .f32) (x3 : Vec Ideal S1024x128 .f32)
    (x4 : Vec Ideal S128x4096 .f32) (x5 : Vec Ideal S1024 .f32) (xs0 : Vec Ideal S128x1024 .f32) (p : Fin 128) (q : Fin 1024) :
    sout0_C_0 (F := Ideal) c i arg2 harg2 arg3 harg3 arg4 harg4 arg5 harg5 arg6 harg6 arg7 harg7 arg8 harg8 arg9 harg9 arg10 harg10 hc0 hc1 x0 x1 x2 x3 x4 x5 xs0 (ix2 p q)
      = xs0 (ix2 p q) + tileSum k x0 x1 x2 p q := by
  rw [acc_last (F := Ideal) c i arg2 harg2 arg3 harg3 arg4 harg4 arg5 harg5 arg6 harg6 arg7 harg7 arg8 harg8 arg9 harg9 arg10 harg10 hc0 hc1 x0 x1 x2 x3 x4 x5 xs0]
  exact step_apply i k hk x0 x1 x2 xs0 p q

/-- The last tile, in the output block: the updated accumulator plus the bias. -/
theorem entry_out (hc0 : ¬cond0_0 i) (hc1 : cond0_1 i) (k : Fin 4) (hk : (i 1).val = k.val)
    (x0 : Vec Ideal S128x4096 .f32) (x1 : Vec Ideal S1024x1024 .i32) (x2 : Vec Ideal S1024 .f32) (x3 : Vec Ideal S1024x128 .f32)
    (x4 : Vec Ideal S128x4096 .f32) (x5 : Vec Ideal S1024 .f32) (xs0 : Vec Ideal S128x1024 .f32) (p : Fin 128) (q : Fin 1024) :
    out0_C_6 (F := Ideal) c i arg2 harg2 arg3 harg3 arg4 harg4 arg5 harg5 arg6 harg6 arg7 harg7 arg8 harg8 arg9 harg9 arg10 harg10 hc0 hc1 x0 x1 x2 x3 x4 x5 xs0 (ix2 p q)
      = (xs0 (ix2 p q) + tileSum k x0 x1 x2 p q) + x5 (ix1 q) := by
  rw [out_last (F := Ideal) c i arg2 harg2 arg3 harg3 arg4 harg4 arg5 harg5 arg6 harg6 arg7 harg7 arg8 harg8 arg9 harg9 arg10 harg10 hc0 hc1 x0 x1 x2 x3 x4 x5 xs0]
  refine (pay5_apply (k0_pay4 x1 x2 (xtile i x0) xs0) x5 p q).trans ?_
  rw [step_apply i k hk x0 x1 x2 xs0 p q]

end Cert.KernelIdeal.Points

end
-- ==== Proof.BlockRead.lean ====
/-
  Reading a window's block at a grid point.

  The fused region runs over a 4 × 4 grid of points. A point `t` (counted 0 … 15, the input tile moving
  fastest) works on output tile `n = t / 4` and input tile `k = t % 4`, each tile 1024 features wide. At
  every point the region sees, of each argument array, one rectangular block: the whole array for the
  activations and the second low-rank factor; the 1024 × 1024 block `(n, k)` of the quantized weight; the
  `n`-th stretch of 1024 of the scales and of the bias; the `n`-th band of 1024 rows of the first
  low-rank factor. An entry of a block is an entry of the array: position `q` inside tile `n` of an
  axis is position `1024 n + q` of that axis. The statements below say this, one per argument, over a
  point left symbolic; the only facts about the grid they use are the block numbers along each axis,
  computed once for all sixteen points.
-/
import proofs.«156089_j46007689674786_2_alg».proof.Proof.Gen.KernelIdeal.Frame
import proofs.«156089_j46007689674786_2_alg».proof.Proof.Spec
import Idealize.ShloMosaic.Lib.ValueIdx

noncomputable section

namespace Cert.KernelIdeal.Blocks

open Cert.KernelIdeal Cert.KernelIdeal.Gen Idealize.ShloMosaic Idealize.ShloMosaic.TcCoe Idealize.SL.Sem
  Idealize.ShloMosaic.ValueIdx Cert.Qlora

variable {F : FTy → Type} [FloatOps F]
variable (m : (ℓ : Loc nD τ sig) → Buf (Elt F) ℓ)

/-- The output tile of a grid point. -/
def nOf (t : Fin cfg0.N) : Fin 4 := ⟨t.val / 4, by have := lt_of_lt_of_eq t.isLt (show cfg0.N = 16 from N_0); omega⟩
/-- The input tile of a grid point. -/
def kOf (t : Fin cfg0.N) : Fin 4 := ⟨t.val % 4, Nat.mod_lt _ (by decide)⟩

/-! ## The block numbers, over the whole grid -/

/-- The activations are one block: block (0, 0) at every point. -/
theorem blockNo0 : ∀ t : Fin cfg0.N, win0_0.index t (0 : Fin 2) = 0 ∧ win0_0.index t (1 : Fin 2) = 0 :=
  (by decide +kernel : ∀ t : Fin grid0.N, _)
/-- The quantized weight's block at point `t` is (output tile, input tile). -/
theorem blockNo1 : ∀ t : Fin cfg0.N, win0_1.index t (0 : Fin 2) = t.val / 4 ∧ win0_1.index t (1 : Fin 2) = t.val % 4 :=
  (by decide +kernel : ∀ t : Fin grid0.N, _)
/-- The scales' block at point `t` is the output tile. -/
theorem blockNo2 : ∀ t : Fin cfg0.N, win0_2.index t (0 : Fin 1) = t.val / 4 :=
  (by decide +kernel : ∀ t : Fin grid0.N, _)
/-- The first low-rank factor's block at point `t` is (output tile, 0). -/
theorem blockNo3 : ∀ t : Fin cfg0.N, win0_3.index t (0 : Fin 2) = t.val / 4 ∧ win0_3.index t (1 : Fin 2) = 0 :=
  (by decide +kernel : ∀ t : Fin grid0.N, _)
/-- The second low-rank factor is one block: block (0, 0) at every point. -/
theorem blockNo4 : ∀ t : Fin cfg0.N, win0_4.index t (0 : Fin 2) = 0 ∧ win0_4.index t (1 : Fin 2) = 0 :=
  (by decide +kernel : ∀ t : Fin grid0.N, _)
/-- The bias's block at point `t` is the output tile. -/
theorem blockNo5 : ∀ t : Fin cfg0.N, win0_5.index t (0 : Fin 1) = t.val / 4 :=
  (by decide +kernel : ∀ t : Fin grid0.N, _)

/-! ## A block's entry is the array's entry

In each proof the block is read through its rectangle of the array, whose coordinate along an axis is
(block number) × (block extent) + 1 × (coordinate inside the block); with the block number known this is
the array coordinate claimed, by arithmetic. -/

/-- The activations' block is the whole flattened array. -/
theorem iblk0_apply (c : Dev nD) (t : Fin cfg0.N) (p : Fin 128) (i : Fin 4096) :
    (iblk m c 0 t : Vec F S128x4096 .f32) (ix2 p i) = V m c main_v0 (ix2 p i) := by
  unfold iblk
  rw [View.read_apply]
  show V m c main_v0 _ = V m c main_v0 _
  congr 1
  funext a
  apply Fin.ext
  match a with
  | ⟨0, _⟩ => show win0_0.index t 0 * 128 + 1 * p.val = p.val; rw [(blockNo0 t).1]; omega
  | ⟨1, _⟩ => show win0_0.index t 1 * 4096 + 1 * i.val = i.val; rw [(blockNo0 t).2]; omega

/-- Entry (q, j) of the weight's block is entry (1024 n + q, 1024 k + j) of the weight. -/
theorem iblk1_apply (c : Dev nD) (t : Fin cfg0.N) (q j : Fin 1024) :
    (iblk m c 1 t : Vec F S1024x1024 .i32) (ix2 q j) = V m c main_arg1 (ix2 (col (nOf t) q) (col (kOf t) j)) := by
  unfold iblk
  rw [View.read_apply]
  show V m c main_arg1 _ = V m c main_arg1 _
  congr 1
  funext a
  apply Fin.ext
  match a with
  | ⟨0, _⟩ => show win0_1.index t 0 * 1024 + 1 * q.val = 1024 * (t.val / 4) + q.val; rw [(blockNo1 t).1]; omega
  | ⟨1, _⟩ => show win0_1.index t 1 * 1024 + 1 * j.val = 1024 * (t.val % 4) + j.val; rw [(blockNo1 t).2]; omega

/-- Entry q of the scales' block is the scale of output feature 1024 n + q. -/
theorem iblk2_apply (c : Dev nD) (t : Fin cfg0.N) (q : Fin 1024) :
    (iblk m c 2 t : Vec F S1024 .f32) (ix1 q) = V m c main_arg2 (ix1 (col (nOf t) q)) := by
  unfold iblk
  rw [View.read_apply]
  show V m c main_arg2 _ = V m c main_arg2 _
  congr 1
  funext a
  apply Fin.ext
  match a with
  | ⟨0, _⟩ => show win0_2.index t 0 * 1024 + 1 * q.val = 1024 * (t.val / 4) + q.val; rw [blockNo2 t]; omega

/-- Entry (q, r) of the first factor's block is entry (1024 n + q, r) of the factor. -/
theorem iblk3_apply (c : Dev nD) (t : Fin cfg0.N) (q : Fin 1024) (r : Fin 128) :
    (iblk m c 3 t : Vec F S1024x128 .f32) (ix2 q r) = V m c main_arg3 (ix2 (col (nOf t) q) r) := by
  unfold iblk
  rw [View.read_apply]
  show V m c main_arg3 _ = V m c main_arg3 _
  congr 1
  funext a
  apply Fin.ext
  match a with
  | ⟨0, _⟩ => show win0_3.index t 0 * 1024 + 1 * q.val = 1024 * (t.val / 4) + q.val; rw [(blockNo3 t).1]; omega
  | ⟨1, _⟩ => show win0_3.index t 1 * 128 + 1 * r.val = r.val; rw [(blockNo3 t).2]; omega

/-- The second factor's block is the whole factor. -/
theorem iblk4_apply (c : Dev nD) (t : Fin cfg0.N) (r : Fin 128) (i : Fin 4096) :
    (iblk m c 4 t : Vec F S128x4096 .f32) (ix2 r i) = V m c main_arg4 (ix2 r i) := by
  unfold iblk
  rw [View.read_apply]
  show V m c main_arg4 _ = V m c main_arg4 _
  congr 1
  funext a
  apply Fin.ext
  match a with
  | ⟨0, _⟩ => show win0_4.index t 0 * 128 + 1 * r.val = r.val; rw [(blockNo4 t).1]; omega
  | ⟨1, _⟩ => show win0_4.index t 1 * 4096 + 1 * i.val = i.val; rw [(blockNo4 t).2]; omega

/-- Entry q of the bias's block is the bias of output feature 1024 n + q. -/
theorem iblk5_apply (c : Dev nD) (t : Fin cfg0.N) (q : Fin 1024) :
    (iblk m c 5 t : Vec F S1024 .f32) (ix1 q) = V m c main_arg5 (ix1 (col (nOf t) q)) := by
  unfold iblk
  rw [View.read_apply]
  show V m c main_arg5 _ = V m c main_arg5 _
  congr 1
  funext a
  apply Fin.ext
  match a with
  | ⟨0, _⟩ => show win0_5.index t 0 * 1024 + 1 * q.val = 1024 * (t.val / 4) + q.val; rw [blockNo5 t]; omega

end Cert.KernelIdeal.Blocks

end
-- ==== Proof.Chain.lean ====
/-
  The accumulator and the output block, point by point, in terms of the arrays the region starts from.

  Grid point `t = 4 n + k` works on output tile `n` and input tile `k`. Its blocks are slices of the whole
  arrays, so what it adds to entry `(p, q)` of the accumulator is the contribution of input tile `k` to output
  entry `(p, 1024 n + q)`. By induction along the grid, after point `t` the accumulator's entry `(p, q)` is the
  low-rank part of that output entry plus the contributions of tiles `0 … k`, added in that order; and at
  `k = 3` the output block's entry is that sum plus the bias: the value the specification names.
-/
import proofs.«156089_j46007689674786_2_alg».proof.Proof.PointValues
import proofs.«156089_j46007689674786_2_alg».proof.Proof.BlockRead

set_option maxRecDepth 16384

noncomputable section

namespace Cert.KernelIdeal.Chain

open Cert.KernelIdeal Cert.KernelIdeal.Gen Cert.KernelIdeal.Points Cert.KernelIdeal.Blocks
open Idealize.ShloMosaic Idealize.ShloMosaic.TcCoe Idealize.SL.Sem Idealize.ShloMosaic.ValueIdx Cert.Qlora

variable (m : (ℓ : Loc nD τ sig) → Buf (Elt Ideal) ℓ)

/-- The arrays as the region finds them: the flattened activations, the quantized weight, the scales, the two
    low-rank factors, the bias. -/
abbrev xF (c : Dev nD) : X2.Idx → EReal := V m c main_v0
abbrev wqF (c : Dev nD) : W2.Idx → BitVec 32 := V m c main_arg1
abbrev scF (c : Dev nD) : V1.Idx → EReal := V m c main_arg2
abbrev aF (c : Dev nD) : A2.Idx → EReal := V m c main_arg3
abbrev bF (c : Dev nD) : X2.Idx → EReal := V m c main_arg4
abbrev biasF (c : Dev nD) : V1.Idx → EReal := V m c main_arg5

/-- The second coordinate of linear point `t` is its input tile `t mod 4`. -/
theorem coord_tile : ∀ t : Fin cfg0.N, (grid0.coords t 1).val = t.val % 4 :=
  (by decide +kernel : ∀ t : Fin grid0.N, (grid0.coords t 1).val = t.val % 4)

theorem coord_kOf (t : Fin cfg0.N) : (grid0.coords t 1).val = (kOf t).val := coord_tile t

/-- A point's tile contribution over its blocks is tile `k`'s contribution to the global output entry. -/
theorem tileSum_blocks (c : Dev nD) (t : Fin cfg0.N) (p : Fin 128) (q : Fin 1024) :
    tileSum (kOf t) (iblk m c 0 t) (iblk m c 1 t) (iblk m c 2 t) p q
      = tileTerm (xF m c) (wqF m c) (scF m c) p (col (nOf t) q) (kOf t) := by
  unfold tileSum tileTerm wdq
  refine Finset.sum_congr rfl fun j _ => ?_
  rw [iblk0_apply m c t p (col (kOf t) j), iblk1_apply m c t q j, iblk2_apply m c t q]

/-- A point's low-rank part over its blocks is the low-rank part of the global output entry. -/
theorem lowSum_blocks (c : Dev nD) (t : Fin cfg0.N) (p : Fin 128) (q : Fin 1024) :
    lowSum (iblk m c 0 t) (iblk m c 4 t) (iblk m c 3 t) p q
      = lowRank (xF m c) (aF m c) (bF m c) p (col (nOf t) q) := by
  unfold lowSum lowRank
  refine Finset.sum_congr rfl fun r _ => ?_
  rw [iblk3_apply m c t q r]
  refine congrArg (· * _) (Finset.sum_congr rfl fun i _ => ?_)
  rw [iblk0_apply m c t p i, iblk4_apply m c t r i]

/-- At the first input tile of an output tile the accumulator is the low-rank part plus that tile's contribution. -/
theorem acc_at_first (c : Dev nD) (t : Fin cfg0.N) (h0 : t.val % 4 = 0) (p : Fin 128) (q : Fin 1024) :
    (outsAt0 m c t.val t.isLt).2 (ix2 p q)
      = lowRank (xF m c) (aF m c) (bF m c) p (col (nOf t) q)
        + tileTerm (xF m c) (wqF m c) (scF m c) p (col (nOf t) q) (kOf t) := by
  have h1 : ¬t.val % 4 = 3 := by omega
  rw [outsAt0_A m c t h0 h1]
  dsimp only
  refine (entry_first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (fun h => h1 ((hcond0_1 t).mp h)) (kOf t) (coord_kOf t)
    (iblk m c 0 t) (iblk m c 1 t) (iblk m c 2 t) (iblk m c 3 t) (iblk m c 4 t) (iblk m c 5 t) p q).trans ?_
  rw [lowSum_blocks m c t p q, tileSum_blocks m c t p q]

/-- At a later input tile the accumulator is what the point before left plus this tile's contribution. -/
theorem acc_at_later (c : Dev nD) (t : Fin cfg0.N) (h0 : ¬t.val % 4 = 0) (p : Fin 128) (q : Fin 1024) :
    (outsAt0 m c t.val t.isLt).2 (ix2 p q)
      = (outsAt0 m c (t.val - 1) (Nat.lt_of_le_of_lt (Nat.sub_le _ _) t.isLt)).2 (ix2 p q)
        + tileTerm (xF m c) (wqF m c) (scF m c) p (col (nOf t) q) (kOf t) := by
  by_cases h1 : t.val % 4 = 3
  · rw [outsAt0_C m c t h0 h1]
    dsimp only
    refine (entry_last c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h1) (kOf t) (coord_kOf t)
      (iblk m c 0 t) (iblk m c 1 t) (iblk m c 2 t) (iblk m c 3 t) (iblk m c 4 t) (iblk m c 5 t) (outsAt0 m c (t.val - 1) (Nat.lt_of_le_of_lt (Nat.sub_le _ _) t.isLt)).2 p q).trans ?_
    rw [tileSum_blocks m c t p q]
  · rw [outsAt0_B m c t h0 h1]
    dsimp only
    refine (entry_mid c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) (fun h => h1 ((hcond0_1 t).mp h)) (kOf t) (coord_kOf t)
      (iblk m c 0 t) (iblk m c 1 t) (iblk m c 2 t) (iblk m c 3 t) (iblk m c 4 t) (iblk m c 5 t) (outsAt0 m c (t.val - 1) (Nat.lt_of_le_of_lt (Nat.sub_le _ _) t.isLt)).2 p q).trans ?_
    rw [tileSum_blocks m c t p q]

/-- At the last input tile the output block is what the point before left, plus this tile's contribution, plus
    the bias. -/
theorem out_at_last (c : Dev nD) (t : Fin cfg0.N) (h3 : t.val % 4 = 3) (p : Fin 128) (q : Fin 1024) :
    (outsAt0 m c t.val t.isLt).1 (ix2 p q)
      = ((outsAt0 m c (t.val - 1) (Nat.lt_of_le_of_lt (Nat.sub_le _ _) t.isLt)).2 (ix2 p q)
          + tileTerm (xF m c) (wqF m c) (scF m c) p (col (nOf t) q) (kOf t))
        + biasF m c (ix1 (col (nOf t) q)) := by
  have h0 : ¬t.val % 4 = 0 := by omega
  rw [outsAt0_C m c t h0 h3]
  dsimp only
  refine (entry_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (fun h => h0 ((hcond0_0 t).mp h)) ((hcond0_1 t).mpr h3) (kOf t) (coord_kOf t)
    (iblk m c 0 t) (iblk m c 1 t) (iblk m c 2 t) (iblk m c 3 t) (iblk m c 4 t) (iblk m c 5 t) (outsAt0 m c (t.val - 1) (Nat.lt_of_le_of_lt (Nat.sub_le _ _) t.isLt)).2 p q).trans ?_
  rw [tileSum_blocks m c t p q, iblk5_apply m c t q]

/-- THE RUNNING SUM. After point `n` (input tile `k = n mod 4` of output tile `n / 4`) the accumulator's entry
    `(p, q)` is the specification's accumulator after tiles `0 … k` for output entry `(p, 1024 (n / 4) + q)`. -/
theorem acc_entry (c : Dev nD) : ∀ (n : ℕ) (h : n < cfg0.N) (k : ℕ) (hk : n % 4 = k) (p : Fin 128) (q : Fin 1024),
    (outsAt0 m c n h).2 (ix2 p q)
      = accAfter (xF m c) (wqF m c) (scF m c) (aF m c) (bF m c) p (col (nOf ⟨n, h⟩) q) k
  | 0, h, k, hk, p, q => by
    obtain rfl : k = 0 := by omega
    exact acc_at_first m c ⟨0, h⟩ rfl p q
  | n + 1, h, k, hk, p, q => by
    by_cases h0 : (n + 1) % 4 = 0
    · obtain rfl : k = 0 := by omega
      have e : kOf (⟨n + 1, h⟩ : Fin cfg0.N) = tileOf 0 := Fin.ext (by show (n + 1) % 4 = 0 % 4; omega)
      refine (acc_at_first m c ⟨n + 1, h⟩ h0 p q).trans ?_
      rw [e]
      rfl
    · obtain ⟨k', rfl⟩ : ∃ k', k = k' + 1 := ⟨k - 1, by omega⟩
      have hk' : n % 4 = k' := by omega
      have en : nOf (⟨n, Nat.lt_of_succ_lt h⟩ : Fin cfg0.N) = nOf (⟨n + 1, h⟩ : Fin cfg0.N) :=
        Fin.ext (by show n / 4 = (n + 1) / 4; omega)
      have ek : kOf (⟨n + 1, h⟩ : Fin cfg0.N) = tileOf (k' + 1) := Fin.ext (by show (n + 1) % 4 = (k' + 1) % 4; omega)
      refine (acc_at_later m c ⟨n + 1, h⟩ h0 p q).trans ?_
      show (outsAt0 m c n _).2 (ix2 p q) + _ = _
      rw [acc_entry c n (Nat.lt_of_succ_lt h) k' hk' p q, en, ek]
      rfl

/-- So at each write-back the output block holds the specification's output at the block's global entries. -/
theorem out_entry (c : Dev nD) (t : Fin cfg0.N) (n : Fin 4) (ht : t.val = 4 * n.val + 3) (p : Fin 128) (q : Fin 1024) :
    (outsAt0 m c t.val t.isLt).1 (ix2 p q)
      = out2 (xF m c) (wqF m c) (scF m c) (aF m c) (bF m c) (biasF m c) (ix2 p (col n q)) := by
  have hN : t.val < 16 := lt_of_lt_of_eq t.isLt (show cfg0.N = 16 from N_0)
  have h3 : t.val % 4 = 3 := by omega
  have hn : nOf t = n := Fin.ext (by show t.val / 4 = n.val; omega)
  have ek : kOf t = tileOf (2 + 1) := Fin.ext (by show t.val % 4 = (2 + 1) % 4; omega)
  have hp : t.val - 1 < cfg0.N := Nat.lt_of_le_of_lt (Nat.sub_le _ _) t.isLt
  have en : nOf (⟨t.val - 1, hp⟩ : Fin cfg0.N) = n := Fin.ext (by show (t.val - 1) / 4 = n.val; omega)
  refine (out_at_last m c t h3 p q).trans ?_
  rw [acc_entry m c (t.val - 1) hp 2 (by omega) p q, en, hn, ek]
  rfl

end Cert.KernelIdeal.Chain

end
-- ==== Proof.OutputCover.lean ====
/-
  From the output block at each write-back to the whole result array.

  The result array is `[128, 4096]`, written in four blocks of `[128, 1024]`: block `n` holds the columns
  `1024 n … 1024 n + 1023` of all 128 rows. The grid has 16 points, point `t = 4 n + k` working on output tile `n`
  and input tile `k`; the output block is written back only after the last input tile, at the points `t = 4 n + 3`,
  and what is written there is what the body left in the output's staging buffer at that point.

  Suppose a function `G` of the whole array is such that, at each of those four points, the staging buffer at `(p, q)`
  holds `G (p, 1024 n + q)`. Then each write-back writes exactly block `n` of `G`; the four blocks tile the array
  (column `j` lies in block `j / 1024`, written at point `4 (j / 1024) + 3`), no block overhangs it, so the array
  ends holding `G`.
-/
import proofs.«156089_j46007689674786_2_alg».proof.Proof.Gen.KernelIdeal.Frame
import proofs.«156089_j46007689674786_2_alg».proof.Proof.Spec
import Idealize.ShloMosaic.Lib.Pipeline.Value

noncomputable section

namespace Cert.KernelIdeal.Blocks

open Cert.KernelIdeal Cert.KernelIdeal.Gen Idealize.ShloMosaic Idealize.ShloMosaic.TcCoe Idealize.SL.Sem Idealize.ShloMosaic.ValueIdx Cert.Qlora
open Idealize.ShloMosaic.Pipeline (Dat)

variable {F : FTy → Type} [FloatOps F]
variable (m : (ℓ : Loc nD τ sig) → Buf (Elt F) ℓ)

/-- The output's block number at point `t`, read off the index map once over the 16 points: always row block `0`,
    and column block `t / 4`. -/
private theorem blockIndex : ∀ t : Fin cfg0.N, win0_6.index t (0 : Fin 2) = 0 ∧ win0_6.index t (1 : Fin 2) = t.val / 4 :=
  (by decide +kernel : ∀ t : Fin grid0.N, win0_6.index t (0 : Fin 2) = 0 ∧ win0_6.index t (1 : Fin 2) = t.val / 4)

/-- What a write-back point writes is its block of `G`. The point is `t = 4 n + 3` with `n = t / 4`; entry `(p, q)` of
    the block sits at row `0 · 128 + p` and column `(t / 4) · 1024 + q` of the array, which is `(p, 1024 n + q)`, where
    the hypothesis says the staging buffer agrees with `G`. -/
private theorem flushed_eq (c : Dev nD) (G : S128x4096.Idx → Elt F .f32)
    (hblk : ∀ (t : Fin cfg0.N) (n : Fin 4), t.val = 4 * n.val + 3 → ∀ (p : Fin 128) (q : Fin 1024),
      (outsAt0 m c t.val t.isLt).1 (ix2 p q) = G (ix2 p (col n q)))
    (t : Fin cfg0.N) (hf : (cfg0.win 6).flush t = true) :
    (dats m 0 c).flushed 6 t = ((cfg0.win 6).blk t).view.read (Elt F) G := by
  show (cfg0.win 6).cut (grid0.coords t) ((dats m 0 c).after 6 t) = _
  rw [after0_6]
  obtain ⟨e0, e1⟩ := blockIndex t
  have h3 : t.val % 4 = 3 := (flush0_6 t).mp hf
  have hN : t.val < 16 := lt_of_lt_of_eq t.isLt (show cfg0.N = 16 from N_0)
  funext y
  have hy0 : (y 0).val < 128 := (y 0).isLt
  have hy1 : (y 1).val < 1024 := (y 1).isLt
  have hx : (cfg0.win 6).xinj (grid0.coords t) y = ix2 (⟨(y 0).val, hy0⟩ : Fin 128) (⟨(y 1).val, hy1⟩ : Fin 1024) := by
    funext a
    match a with
    | ⟨0, _⟩ => rfl
    | ⟨1, _⟩ => rfl
  have he : ((cfg0.win 6).blk t).view.emb y
      = ix2 (⟨(y 0).val, hy0⟩ : Fin 128) (col (⟨t.val / 4, by omega⟩ : Fin 4) (⟨(y 1).val, hy1⟩ : Fin 1024)) := by
    funext a; apply Fin.ext
    match a with
    | ⟨0, _⟩ => show win0_6.index t (0 : Fin 2) * 128 + 1 * (y 0).val = (y 0).val; omega
    | ⟨1, _⟩ => show win0_6.index t (1 : Fin 2) * 1024 + 1 * (y 1).val = 1024 * (t.val / 4) + (y 1).val; omega
  show (outsAt0 m c t.val t.isLt).1 ((cfg0.win 6).xinj (grid0.coords t) y) = G (((cfg0.win 6).blk t).view.emb y)
  rw [hx, he]
  exact hblk t ⟨t.val / 4, by omega⟩ (by show t.val = 4 * (t.val / 4) + 3; omega) _ _

/-- Every index `(r, j)` of the array lies in the block written at point `4 (j / 1024) + 3`: that block spans all
    128 rows and the columns `1024 (j / 1024) … 1024 (j / 1024) + 1023`. -/
private theorem cover (i : S128x4096.Idx) :
    ∃ t : Fin cfg0.N, (cfg0.win 6).flush t = true ∧ i ∈ ((cfg0.win 6).blk t).view.set := by
  have hi0 : (i 0).val < 128 := (i 0).isLt
  have hi1 : (i 1).val < 4096 := (i 1).isLt
  have hN : cfg0.N = 16 := N_0
  have ht : 4 * ((i 1).val / 1024) + 3 < cfg0.N := by rw [hN]; omega
  obtain ⟨e0, e1⟩ := blockIndex ⟨4 * ((i 1).val / 1024) + 3, ht⟩
  have e1' : win0_6.index ⟨4 * ((i 1).val / 1024) + 3, ht⟩ (1 : Fin 2) = (4 * ((i 1).val / 1024) + 3) / 4 := e1
  refine ⟨⟨4 * ((i 1).val / 1024) + 3, ht⟩, (flush0_6 _).mpr (by show (4 * ((i 1).val / 1024) + 3) % 4 = 3; omega), ?_⟩
  show i ∈ ((View.whole main_v1).slice (win0_6.rect ⟨4 * ((i 1).val / 1024) + 3, ht⟩)).set
  rw [View.set_slice_whole, Rect.mem_set_unit]
  intro a
  match a with
  | ⟨0, _⟩ =>
    show win0_6.index ⟨4 * ((i 1).val / 1024) + 3, ht⟩ (0 : Fin 2) * 128 ≤ (i 0).val
      ∧ (i 0).val < win0_6.index ⟨4 * ((i 1).val / 1024) + 3, ht⟩ (0 : Fin 2) * 128 + 128
    omega
  | ⟨1, _⟩ =>
    show win0_6.index ⟨4 * ((i 1).val / 1024) + 3, ht⟩ (1 : Fin 2) * 1024 ≤ (i 1).val
      ∧ (i 1).val < win0_6.index ⟨4 * ((i 1).val / 1024) + 3, ht⟩ (1 : Fin 2) * 1024 + 1024
    omega

/-- The result array after the run is `G`, given that at each write-back point `t = 4 n + 3` the output's staging
    buffer holds block `n` of `G`. -/
theorem result_of_blocks (c : Dev nD) (G : S128x4096.Idx → Elt F .f32)
    (hblk : ∀ (t : Fin cfg0.N) (n : Fin 4), t.val = 4 * n.val + 3 → ∀ (p : Fin 128) (q : Fin 1024),
      (outsAt0 m c t.val t.isLt).1 (ix2 p q) = G (ix2 p (col n q))) :
    (dats m 0 c).arrAt 6 cfg0.N = G :=
  (dats m 0 c).arrAt_eq_of_cover 6 G (flushed_eq m c G hblk) cover

end Cert.KernelIdeal.Blocks

end
-- ==== Proof.HostEnds.lean ====
/-
  The two reshapes around the fused region.

  Before the region the activations, given as [8, 16, 4096], are flattened to rows [128, 4096]; after it
  the [128, 4096] result is cut back into [8, 16, 4096]. Neither moves a number: each only re-indexes the
  same row-major sequence. The two statements below say what the flattened array holds when the region
  starts, and what the final array holds in terms of what the region left in its result array.
-/
import proofs.«156089_j46007689674786_2_alg».proof.Proof.Gen.KernelIdeal.Frame
import proofs.«156089_j46007689674786_2_alg».proof.Proof.Spec
import Idealize.ShloMosaic.Lib.StableHlo.Run
import Idealize.ShloMosaic.Lib.Pipeline.FrameSuffix

noncomputable section

namespace Cert.KernelIdeal.Blocks

open Cert.KernelIdeal Cert.KernelIdeal.Gen Idealize.ShloMosaic Idealize.ShloMosaic.TcCoe Idealize.SL.Sem
  Idealize.ShloMosaic.ValueIdx Cert.Qlora
open Idealize.ShloMosaic.Pipeline (Dat)

variable {F : FTy → Type} [FloatOps F]
variable (m : (ℓ : Loc nD τ sig) → Buf (Elt F) ℓ)

/-- When the region starts, the flattened activations are the given activations re-indexed row-major:
    the one operation before the region is that reshape, and it is the only writer of the flattened array. -/
theorem V_main_v0 (c : Dev nD) :
    (V m c main_v0 : S128x4096.Idx → Elt F .f32)
      = shapeCast S128x4096 (m ((c : Thread nD τ).loc main_arg0)) shapeCasts_S8x16x4096_S128x4096 := by
  show StableHlo.after hostOps0 (fun b => m (c, b)) (Proc.devRef .tc main_v0) = _
  after_results
  rfl

/-- The final array is the region's result array re-indexed row-major into [8, 16, 4096]: the one
    operation after the region is that reshape, reading the result array as the region left it. -/
theorem tail_main_v2 (c : Dev nD) :
    (Pipeline.afterTail₀ cfgs (dats m) 0 (V0 m) [hostOps1] c main_v2 : S8x16x4096.Idx → Elt F .f32)
      = shapeCast S8x16x4096 ((dats m 0 c).arrAt 6 cfg0.N) shapeCasts_S128x4096_S8x16x4096 := by
  unfold Pipeline.afterTail₀
  show StableHlo.after hostOps1 _ (Proc.devRef .tc main_v2) = _
  after_results
  have e : (Pipeline.withArrays spec0 c (V0 m c) (fun w => (dats m 0 c).arrAt w cfg0.N)
      (Proc.devRef .tc (Pipeline.arrRef spec0 6)) : S128x4096.Idx → Elt F .f32) = (dats m 0 c).arrAt 6 cfg0.N :=
    Pipeline.withArrays_arr spec0 launch0.win.arr_inj c _ _ 6
  exact congrArg (fun A : S128x4096.Idx → Elt F .f32 => shapeCast S8x16x4096 A shapeCasts_S128x4096_S8x16x4096) e

end Cert.KernelIdeal.Blocks

end
-- ==== Proof.KernelRun.lean ====
/-
  The idealized kernel's run, with its result named.

  The region's result array ends at the specification's output over the flattened activations: every block
  written back holds the specification's values at that block's entries, and the blocks tile the array. The
  reshape before the region makes the flattened activations the given ones re-indexed, the reshape after it
  re-indexes the result array back to `[8, 16, 4096]`, and no argument array is written. So every run ends
  with the final array at `reshape (out2 (reshape x) wq scale A B bias)` and the arguments as launched.
-/
import proofs.«156089_j46007689674786_2_alg».proof.Proof.Chain
import proofs.«156089_j46007689674786_2_alg».proof.Proof.OutputCover
import proofs.«156089_j46007689674786_2_alg».proof.Proof.HostEnds

set_option maxRecDepth 16384

noncomputable section

namespace Cert.KernelIdeal.Chain

open Cert.KernelIdeal Cert.KernelIdeal.Gen Cert.KernelIdeal.Blocks
open Idealize.ShloMosaic Idealize.ShloMosaic.TcCoe Idealize.SL.Sem Idealize.ShloMosaic.ValueIdx Cert.Qlora
open Idealize.ShloMosaic.Pipeline (Dat)

variable (m : (ℓ : Loc nD τ sig) → Buf (Elt Ideal) ℓ) (ρ : Dev nD → PrngReg)

/-- The region's result array after the run: the specification's output of the arrays the region started from. -/
theorem result_array (c : Dev nD) :
    (dats m 0 c).arrAt 6 cfg0.N = out2 (xF m c) (wqF m c) (scF m c) (aF m c) (bF m c) (biasF m c) :=
  result_of_blocks m c _ (fun t n ht p q => out_entry m c t n ht p q)

/-- The final array, as a function of the argument arrays as launched. -/
abbrev result (c : Dev nD) : S8x16x4096.Idx → EReal :=
  shapeCast S8x16x4096
    (out2 (shapeCast S128x4096 (m ((c : Thread nD τ).loc main_arg0)) shapeCasts_S8x16x4096_S128x4096)
      (m ((c : Thread nD τ).loc main_arg1)) (m ((c : Thread nD τ).loc main_arg2)) (m ((c : Thread nD τ).loc main_arg3))
      (m ((c : Thread nD τ).loc main_arg4)) (m ((c : Thread nD τ).loc main_arg5)))
    shapeCasts_S128x4096_S8x16x4096

/-- What the lines after the region leave in the final array. -/
theorem tail_result (c : Dev nD) :
    Pipeline.afterTail₀ cfgs (dats m) 0 (V0 m) [hostOps1] c main_v2 = result m c := by
  refine (tail_main_v2 m c).trans ?_
  rw [result_array m c]
  show shapeCast S8x16x4096 (out2 (V m c main_v0) (V m c main_arg1) (V m c main_arg2) (V m c main_arg3)
    (V m c main_arg4) (V m c main_arg5)) _ = _
  rw [V_main_v0 m c, V_main_arg1 m c, V_main_arg2 m c, V_main_arg3 m c, V_main_arg4 m c, V_main_arg5 m c]

/-- Every weakly fair execution of the idealized kernel terminates with the final array at `result` and the
    argument arrays unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v2 (Pipeline.mem_restRefs_of main_v2 (by decide) (by decide))).trans (tail_result m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.Chain

end
-- ==== Proof.RefRead.lean ====
/-
  The reference program's result, read at one output position.

  The reference assembles the full weight first: it converts the stored integers to floats, multiplies each
  row by that output feature's scale, adds the product of the two low-rank factors, and then contracts the
  activations against the assembled weight over the input features, adding the bias last. Read at the
  position (b, s, o) this is
    (∑ᵢ x[b, s, i] · (float(wq[o, i]) · scale[o] + ∑ᵣ A[o, r] · B[r, i])) + bias[o].
  The proof only has to say where each layout step (the two broadcasts of the scale, the two of the bias,
  the two contractions) reads its operand: every one of those positions is an index built from the
  coordinates b, s, o and the summation variables.
-/
import proofs.«156089_j46007689674786_2_alg».proof.Proof.Gen.ReferenceIdeal.Read
import proofs.«156089_j46007689674786_2_alg».proof.Proof.Spec

noncomputable section

namespace Cert.Qlora.Ref

open Idealize.ShloMosaic Idealize.ShloMosaic.ValueIdx Cert.Qlora
open Cert.ReferenceIdeal Cert.ReferenceIdeal.Read

/-- The outer contraction reads the activations at the same row, input feature k. -/
theorem lidx6 (b : Fin 8) (s : Fin 16) (o k : Fin 4096) :
    lidx_main_v6 (ix3 b s o) k = ix3 b s k :=
  funext fun a => Fin.ext (by match a with | ⟨0, _⟩ => rfl | ⟨1, _⟩ => rfl | ⟨2, _⟩ => rfl)

/-- The outer contraction reads the assembled weight at (output feature o, input feature k). -/
theorem ridx6 (b : Fin 8) (s : Fin 16) (o k : Fin 4096) :
    ridx_main_v6 (ix3 b s o) k = ix2 o k :=
  funext fun a => Fin.ext (by match a with | ⟨0, _⟩ => rfl | ⟨1, _⟩ => rfl)

/-- The bias, broadcast over rows, is read at the output feature. -/
theorem idx78 (b : Fin 8) (s : Fin 16) (o : Fin 4096) :
    idx_main_v7 (idx_main_v8 (ix3 b s o)) = ix1 o :=
  funext fun a => Fin.ext (by match a with | ⟨0, _⟩ => rfl)

/-- The scale, broadcast along the input features, is read at the output feature. -/
theorem idx12 (o k : Fin 4096) :
    idx_main_v1 (idx_main_v2 (ix2 o k)) = ix1 o :=
  funext fun a => Fin.ext (by match a with | ⟨0, _⟩ => rfl)

/-- The low-rank product reads its first factor at (output feature o, rank index r). -/
theorem lidx4 (o k : Fin 4096) (r : Fin 128) :
    lidx_main_v4 (ix2 o k) r = ix2 o r :=
  funext fun a => Fin.ext (by match a with | ⟨0, _⟩ => rfl | ⟨1, _⟩ => rfl)

/-- The low-rank product reads its second factor at (rank index r, input feature k). -/
theorem ridx4 (o k : Fin 4096) (r : Fin 128) :
    ridx_main_v4 (ix2 o k) r = ix2 r k :=
  funext fun a => Fin.ext (by match a with | ⟨0, _⟩ => rfl | ⟨1, _⟩ => rfl)

/-- The reference's result at position (b, s, o). -/
theorem ref_apply (x0 : X3.Idx → EReal) (x1 : W2.Idx → BitVec 32) (x2 : V1.Idx → EReal) (x3 : A2.Idx → EReal)
    (x4 : X2.Idx → EReal) (x5 : V1.Idx → EReal) (b : Fin 8) (s : Fin 16) (o : Fin 4096) :
    Cert.ReferenceIdeal.Read.val_main_v9 (F := Ideal) x0 x1 x2 x3 x4 x5 (ix3 b s o)
      = (∑ i : Fin 4096, x0 (ix3 b s i) * (wdq x1 x2 o i + ∑ r : Fin 128, x3 (ix2 o r) * x4 (ix2 r i))) + x5 (ix1 o) := by
  rw [val_main_v9_apply, val_main_v6_apply, val_main_v8_apply, val_main_v7_apply]
  simp only [val_main_v5_apply, val_main_v3_apply, val_main_v0_apply, val_main_v2_apply, val_main_v1_apply,
    val_main_v4_apply, lidx6, ridx6, idx78, idx12, lidx4, ridx4, Ideal.addf_def, Ideal.mulf_def]
  rfl

end Cert.Qlora.Ref

end
-- ==== Proof.RealLaw.lean ====
/-
  The law over the real numbers that joins the two arrangements of a linear layer whose weight is a
  dequantized matrix plus a low-rank product.

  For one output entry, with `x i` the activations of a row, `w i` the dequantized weights of an output
  feature, `a r` that feature's row of the first low-rank factor and `b r i` the second factor:

    ∑ i, x i * (w i + ∑ r, a r * b r i)  =  (∑ r, (∑ i, x i * b r i) * a r) + ∑ i, x i * w i .

  The left side multiplies by the assembled weight; the right side first projects the activations
  through the second factor, then through the first, and adds the dequantized product.
-/
import Mathlib

namespace Cert.Qlora

open Finset

/-- Distribute the activations over the two summands of the weight and exchange the two sums of the
    low-rank part. -/
theorem real_law {I R : Type*} [Fintype I] [Fintype R] (x w : I → ℝ) (a : R → ℝ) (b : R → I → ℝ) :
    ∑ i, x i * (w i + ∑ r, a r * b r i) = (∑ r, (∑ i, x i * b r i) * a r) + ∑ i, x i * w i := by
  have h1 : ∀ i, x i * (w i + ∑ r, a r * b r i) = x i * w i + ∑ r, x i * b r i * a r := by
    intro i
    rw [mul_add, Finset.mul_sum]
    congr 1
    exact Finset.sum_congr rfl (fun r _ => by ring)
  simp only [h1, Finset.sum_add_distrib]
  rw [Finset.sum_comm, add_comm]
  congr 1
  exact Finset.sum_congr rfl (fun r _ => (Finset.sum_mul _ _ _).symm)

end Cert.Qlora
-- ==== Proof.ERealLaw.lean ====
/-
  The kernel's order of additions equals the reference's single sum, on the extended reals, for finite inputs.

  For output entry `(p, o)` the kernel starts from the low-rank part in factored form,
  `∑ r, (∑ i, x[p, i] · B[r, i]) · A[o, r]`, and adds to it, one after the other, the four tile contributions
  `∑ j, x[p, 1024 k + j] · wdq[o, 1024 k + j]`. The reference multiplies row `p` of the activations by the assembled
  weight, `∑ i, x[p, i] · (wdq[o, i] + ∑ r, A[o, r] · B[r, i])`.

  On the extended reals distributivity and the exchange of two sums fail at `±∞`, so the equality is proved where all
  inputs are finite: every entry is then the image of a real number, products, sums and finite sums of images are
  images of the real products and sums, and both sides become the image of a real expression. The two real expressions
  are equal by the distributive law and the exchange of sums over the reals, and by cutting a sum over 4096 positions
  into four consecutive blocks of 1024.
-/
import proofs.«156089_j46007689674786_2_alg».proof.Proof.Spec
import proofs.«156089_j46007689674786_2_alg».proof.Proof.RealLaw
import Mathlib

namespace Cert.Qlora

open Idealize.ShloMosaic Idealize.ShloMosaic.ValueIdx

/-- The embedding of the reals in the extended reals commutes with finite sums. -/
private theorem coe_sum {ι : Type*} (s : Finset ι) (f : ι → ℝ) :
    ((∑ i ∈ s, f i : ℝ) : EReal) = ∑ i ∈ s, (f i : EReal) := by
  classical
  refine Finset.induction_on s (by simp) (fun a s ha ih => ?_)
  rw [Finset.sum_insert ha, Finset.sum_insert ha, EReal.coe_add, ih]

/-- A sum over 4096 positions is the sum, over the four tiles, of the sums over each tile's 1024 positions:
    position `1024 k + j` is entry `j` of tile `k`, and every position is reached exactly once. -/
private theorem sum_blocks (f : Fin 4096 → ℝ) :
    ∑ i : Fin 4096, f i = ∑ k : Fin 4, ∑ j : Fin 1024, f (col k j) := by
  have h : ∀ kj : Fin 4 × Fin 1024, (finProdFinEquiv kj : Fin 4096) = col kj.1 kj.2 := by
    rintro ⟨k, j⟩
    apply Fin.ext
    show j.val + 1024 * k.val = 1024 * k.val + j.val
    omega
  calc ∑ i : Fin 4096, f i
      = ∑ kj : Fin 4 × Fin 1024, f (finProdFinEquiv kj) :=
        (Equiv.sum_comp (finProdFinEquiv (m := 4) (n := 1024)) f).symm
    _ = ∑ kj : Fin 4 × Fin 1024, f (col kj.1 kj.2) := Finset.sum_congr rfl (fun kj _ => by rw [h])
    _ = ∑ k : Fin 4, ∑ j : Fin 1024, f (col k j) := Fintype.sum_prod_type _

/-- The identity over the reals: the factored low-rank part plus the four tile sums, added in order, is the single
    sum against the assembled weight. -/
private theorem real_chain (x w : Fin 4096 → ℝ) (a : Fin 128 → ℝ) (b : Fin 128 → Fin 4096 → ℝ) :
    ((((∑ r : Fin 128, (∑ i : Fin 4096, x i * b r i) * a r)
          + ∑ j : Fin 1024, x (col 0 j) * w (col 0 j))
          + ∑ j : Fin 1024, x (col 1 j) * w (col 1 j))
          + ∑ j : Fin 1024, x (col 2 j) * w (col 2 j))
          + ∑ j : Fin 1024, x (col 3 j) * w (col 3 j)
      = ∑ i : Fin 4096, x i * (w i + ∑ r : Fin 128, a r * b r i) := by
  have hb : ∑ i : Fin 4096, x i * w i = ∑ k : Fin 4, ∑ j : Fin 1024, x (col k j) * w (col k j) :=
    sum_blocks (fun i => x i * w i)
  rw [real_law, hb, Fin.sum_univ_four]
  simp only [add_assoc]

/-- The accumulator after the last tile is the single sum against the assembled weight, when every input entry is
    finite. Each entry is replaced by the image of a real number; images are pushed outward through products, sums and
    finite sums until each side is the image of one real expression; the real expressions agree by `real_chain`. -/
theorem accAfter_three_eq (x : X2.Idx → EReal) (wq : W2.Idx → BitVec 32) (sc : V1.Idx → EReal) (A : A2.Idx → EReal)
    (B : X2.Idx → EReal) (p : Fin 128) (o : Fin 4096)
    (hx : ∀ i, ∃ r : ℝ, x i = (r : EReal)) (hsc : ∀ i, ∃ r : ℝ, sc i = (r : EReal))
    (hA : ∀ i, ∃ r : ℝ, A i = (r : EReal)) (hB : ∀ i, ∃ r : ℝ, B i = (r : EReal)) :
    accAfter x wq sc A B p o 3
      = ∑ i : Fin 4096, x (ix2 p i) * (wdq wq sc o i + ∑ r : Fin 128, A (ix2 o r) * B (ix2 r i)) := by
  choose xr hxr using hx
  choose scr hscr using hsc
  choose Ar hAr using hA
  choose Br hBr using hB
  -- the dequantized weight of output feature `o` is the image of a real number
  have hW : ∀ i : Fin 4096,
      wdq wq sc o i = ((((wq (ix2 o i)).toInt : ℝ) * scr (ix1 o) : ℝ) : EReal) := by
    intro i
    show (((wq (ix2 o i)).toInt : ℝ) : EReal) * sc (ix1 o) = _
    rw [hscr, ← EReal.coe_mul]
  -- each tile's contribution is the image of a real sum
  have hT : ∀ k : Fin 4, tileTerm x wq sc p o k
      = ((∑ j : Fin 1024, xr (ix2 p (col k j)) * (((wq (ix2 o (col k j))).toInt : ℝ) * scr (ix1 o)) : ℝ) : EReal) := by
    intro k
    unfold tileTerm
    rw [coe_sum]
    refine Finset.sum_congr rfl (fun j _ => ?_)
    rw [hxr, hW, ← EReal.coe_mul]
  -- the factored low-rank part is the image of a real double sum
  have hL : lowRank x A B p o
      = ((∑ r : Fin 128, (∑ i : Fin 4096, xr (ix2 p i) * Br (ix2 r i)) * Ar (ix2 o r) : ℝ) : EReal) := by
    have hin : ∀ r : Fin 128, (∑ i : Fin 4096, x (ix2 p i) * B (ix2 r i))
        = ((∑ i : Fin 4096, xr (ix2 p i) * Br (ix2 r i) : ℝ) : EReal) := by
      intro r
      rw [coe_sum]
      refine Finset.sum_congr rfl (fun i _ => ?_)
      rw [hxr, hBr, ← EReal.coe_mul]
    unfold lowRank
    rw [coe_sum]
    refine Finset.sum_congr rfl (fun r _ => ?_)
    rw [hin, hAr, ← EReal.coe_mul]
  -- the reference's sum against the assembled weight is the image of a real sum
  have hR : (∑ i : Fin 4096, x (ix2 p i) * (wdq wq sc o i + ∑ r : Fin 128, A (ix2 o r) * B (ix2 r i)))
      = ((∑ i : Fin 4096, xr (ix2 p i)
            * ((((wq (ix2 o i)).toInt : ℝ) * scr (ix1 o)) + ∑ r : Fin 128, Ar (ix2 o r) * Br (ix2 r i)) : ℝ) : EReal) := by
    have hlr : ∀ i : Fin 4096, (∑ r : Fin 128, A (ix2 o r) * B (ix2 r i))
        = ((∑ r : Fin 128, Ar (ix2 o r) * Br (ix2 r i) : ℝ) : EReal) := by
      intro i
      rw [coe_sum]
      refine Finset.sum_congr rfl (fun r _ => ?_)
      rw [hAr, hBr, ← EReal.coe_mul]
    rw [coe_sum]
    refine Finset.sum_congr rfl (fun i _ => ?_)
    rw [hxr, hW, hlr, ← EReal.coe_add, ← EReal.coe_mul]
  show (((lowRank x A B p o + tileTerm x wq sc p o (tileOf 0)) + tileTerm x wq sc p o (tileOf 1))
          + tileTerm x wq sc p o (tileOf 2)) + tileTerm x wq sc p o (tileOf 3) = _
  rw [hR, hL, hT, hT, hT, hT, ← EReal.coe_add, ← EReal.coe_add, ← EReal.coe_add, ← EReal.coe_add]
  exact congrArg Real.toEReal
    (real_chain (fun i => xr (ix2 p i)) (fun i => ((wq (ix2 o i)).toInt : ℝ) * scr (ix1 o))
      (fun r => Ar (ix2 o r)) (fun r i => Br (ix2 r i)))

end Cert.Qlora
-- ==== Proof.ReshapeRead.lean ====
/-
  The two row-major reshapes of the activations, read at an index given by coordinates.

  The `[8, 16, 4096]` activations are flattened to `[128, 4096]` rows before the products and the result is
  unflattened at the end. Both are row-major reshapes: entry `(b, s, i)` of the rank-3 array sits at linear position
  `(16 b + s) · 4096 + i`, which is the position of entry `(16 b + s, i)` of the rank-2 array. So the flattened array
  at `(row b s, i)` is the original at `(b, s, i)`, and the other way round.
-/
import proofs.«156089_j46007689674786_2_alg».proof.Proof.Spec
import Idealize.ShloMosaic.Lib.Pipeline.Value
import Idealize.ShloMosaic.Lib.ValueIdx

namespace Cert.Qlora

open Idealize.ShloMosaic Idealize.ShloMosaic.ValueIdx

/-- The linear positions agree: `(b · 16 + s) · 4096 + i` on the rank-3 side is `(16 b + s) · 4096 + i` on the
    rank-2 side. -/
private theorem rowMajor_flat (b : Fin 8) (s : Fin 16) (i : Fin 4096) :
    (X3.rowMajor (ix3 b s i)).val = (X2.rowMajor (ix2 (row b s) i)).val := by
  rw [Shape.rowMajor_val_three, Shape.rowMajor_val_two]
  show (b.val * 16 + s.val) * 4096 + i.val = (16 * b.val + s.val) * 4096 + i.val
  omega

/-- The activations flattened to rows read, at `(16 b + s, i)`, the original at `(b, s, i)`. -/
theorem flat_apply {α : Type} (x : X3.Idx → α) (h : X3.ShapeCasts X2) (b : Fin 8) (s : Fin 16) (i : Fin 4096) :
    shapeCast X2 x h (ix2 (row b s) i) = x (ix3 b s i) :=
  shapeCast_apply x h _ _ (rowMajor_flat b s i)

/-- A `[128, 4096]` array unflattened to `[8, 16, 4096]` reads, at `(b, s, o)`, the operand at `(16 b + s, o)`. -/
theorem unflat_apply {α : Type} (y : X2.Idx → α) (h : X2.ShapeCasts X3) (b : Fin 8) (s : Fin 16) (o : Fin 4096) :
    shapeCast X3 y h (ix3 b s o) = y (ix2 (row b s) o) :=
  shapeCast_apply y h _ _ (rowMajor_flat b s o).symm

end Cert.Qlora
-- ==== Proof.Bridge.lean ====
/-
  The reference's whole result is the kernel's function of the flattened activations, reshaped back.

  Position (b, s, o) of the reference's result is
    (∑ᵢ x[b, s, i] · (float(wq[o, i]) · scale[o] + ∑ᵣ A[o, r] · B[r, i])) + bias[o].
  On the kernel's side the activations are first flattened to rows, so that row 16 b + s holds x[b, s, ·];
  the accumulator for entry (16 b + s, o) after the last tile equals, for finite inputs, the single sum of
  that row against the assembled weight; the bias is added; and the result is unflattened, so position
  (b, s, o) reads entry (16 b + s, o). Entry by entry the two sides are therefore the same sum: the only
  thing left to say is that the flattened array at (16 b + s, i) is the original at (b, s, i), and that
  every entry of the flattened array, being an entry of the original, is a real number.
-/
import proofs.«156089_j46007689674786_2_alg».proof.Proof.RefRead
import proofs.«156089_j46007689674786_2_alg».proof.Proof.ERealLaw
import proofs.«156089_j46007689674786_2_alg».proof.Proof.ReshapeRead
import proofs.«156089_j46007689674786_2_alg».proof.Proof.Spec

noncomputable section

namespace Cert.Qlora

open Idealize.ShloMosaic Idealize.ShloMosaic.ValueIdx

/-- For finite activations, scales and low-rank factors, the reference's result array is the unflattening of
    the kernel's output over the flattened rows. -/
theorem ref_eq_out (x0 : X3.Idx → EReal) (x1 : W2.Idx → BitVec 32) (x2 : V1.Idx → EReal) (x3 : A2.Idx → EReal)
    (x4 : X2.Idx → EReal) (x5 : V1.Idx → EReal)
    (h0 : ∀ i, ∃ r : ℝ, x0 i = (r : EReal)) (h2 : ∀ i, ∃ r : ℝ, x2 i = (r : EReal))
    (h3 : ∀ i, ∃ r : ℝ, x3 i = (r : EReal)) (h4 : ∀ i, ∃ r : ℝ, x4 i = (r : EReal))
    (hf : X3.ShapeCasts X2) (hu : X2.ShapeCasts X3) :
    Cert.ReferenceIdeal.Read.val_main_v9 (F := Ideal) x0 x1 x2 x3 x4 x5
      = shapeCast X3 (out2 (shapeCast X2 x0 hf) x1 x2 x3 x4 x5) hu := by
  funext j
  obtain ⟨b, s, o, rfl⟩ : ∃ (b : Fin 8) (s : Fin 16) (o : Fin 4096), j = ix3 b s o := ⟨j 0, j 1, j 2, eq_ix3 j⟩
  -- a reshape only re-indexes: every entry of the flattened activations is an entry of the original
  have hx : ∀ i, ∃ r : ℝ, shapeCast X2 x0 hf i = (r : EReal) := fun i => h0 _
  rw [Ref.ref_apply, unflat_apply]
  -- the kernel's output at (16 b + s, o): the accumulator after the last tile, plus the bias
  show _ = accAfter (shapeCast X2 x0 hf) x1 x2 x3 x4 (row b s) o 3 + x5 (ix1 o)
  rw [accAfter_three_eq _ _ _ _ _ _ _ hx h2 h3 h4]
  simp only [flat_apply]

end Cert.Qlora

end
-- ==== Proof.Finite.lean ====
/-
  From the precondition to "every float entry of the arguments is a real number".

  The precondition is the conjunction, over the five float arrays, of the test "every entry has absolute
  value below +infinity". An extended real whose absolute value max(x, -x) is strictly below the top
  element is neither infinity, so it is a real number. The test of one array is an and-reduction, over
  all axes, of the entrywise comparison against the broadcast constant whose bit pattern 0x7F800000 is
  +infinity; a reduction by "and" that comes out 1 had a 1 at every entry.
-/
import proofs.«156089_j46007689674786_2_alg».proof.Defs
import proofs.«156089_j46007689674786_2_alg».proof.Proof.Gen.Pre_finite_inputs
import Idealize.ShloMosaic.Lib.ReduceAll
import Idealize.ShloMosaic.Lib.ValueIdx
import Idealize.ShloMosaic.PureOps.Ideal.Laws

noncomputable section

namespace Cert.Qlora.Finite

open Idealize.ShloMosaic Idealize.SL.Sem

/-- The single-precision pattern with all exponent bits set and no fraction bits is +infinity. -/
theorem inf_bits : Ideal.ofBits .f32 0x7F800000#32 = (⊤ : EReal) := by
  simp [Ideal.ofBits, Ideal.ieee]

/-- An extended real whose absolute value is strictly below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 exactly when the truth value is true. -/
theorem ofBool_eq_one (b : Bool) : BitVec.ofBool b = 1#1 ↔ b = true := by cases b <;> decide

/-- The scalar shape has one index. -/
instance : Subsingleton Cert.Pre_finite_inputs.S_.Idx := ⟨fun a b => funext fun d => d.elim0⟩

/-- One array's test: if the and-reduction over all axes of "|x| < +infinity" is 1, every entry of x is real. -/
theorem all_real {s : Shape} {axes : List (Fin s.rank)} (x : s.Idx → EReal)
    (hb : Cert.Pre_finite_inputs.S_.BroadcastsInDim s (![] : Fin 0 → Fin s.rank))
    (hr : s.ReducesTo axes Cert.Pre_finite_inputs.S_) (hu : 0 < Cert.Pre_finite_inputs.S_.numel)
    (init : Cert.Pre_finite_inputs.S_.Idx → BitVec 1) (j : Cert.Pre_finite_inputs.S_.Idx)
    (e : Host.reduce IntOp.andi
        (cmpf (F := Ideal) (φ := .f32) .olt (Host.absf (F := Ideal) (φ := .f32) x)
          (broadcastInDim s ![] hb (constant (F := Ideal) Cert.Pre_finite_inputs.S_ .f32 0x7F800000#32)))
        init hr hu j = 1#1) (i : s.Idx) : ∃ r : ℝ, x i = (r : EReal) := by
  have h1 := Host.reduce_andi_all _ init hr hu j e i
  apply real_of_abs_lt_top
  have h2 : Ideal.cmp .olt (max (x i) (-(x i))) (Ideal.ofBits .f32 0x7F800000#32) = 1#1 := h1
  rw [inf_bits] at h2
  have h3 : decide (max (x i) (-(x i)) < (⊤ : EReal)) = true := (ofBool_eq_one _).1 h2
  exact of_decide_eq_true h3

/-- Under the precondition, on every device, each of the five float argument arrays holds only real numbers. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal))
    ∧ (∀ i, ∃ r : ℝ, m ((c.tc : Thread Cert.KernelIdeal.nD Cert.KernelIdeal.τ).loc Cert.KernelIdeal.main_arg4) i = (r : EReal))
    ∧ (∀ i, ∃ r : ℝ, m ((c.tc : Thread Cert.KernelIdeal.nD Cert.KernelIdeal.τ).loc Cert.KernelIdeal.main_arg5) i = (r : EReal)) := by
  have e := congrFun (h c) ValueIdx.ix0
  dsimp only [Cert.Pre_finite_inputs.fn, Cert.Pre_finite_inputs.fn_part1] at e
  simp only [andi, IntOp.andi_eq_one] at e
  obtain ⟨⟨⟨⟨e0, e2⟩, e3⟩, e4⟩, e5⟩ := e
  exact ⟨all_real _ _ _ _ _ _ e0, all_real _ _ _ _ _ _ e2, all_real _ _ _ _ _ _ e3,
    all_real _ _ _ _ _ _ e4, all_real _ _ _ _ _ _ e5⟩

end Cert.Qlora.Finite

end
-- ==== Proof.lean ====
/-
  A quantized linear layer with a low-rank additive update, fused in one kernel, equals its reference over the
  extended reals whenever the float inputs are finite.

  The reference assembles the weight `W[o, i] = float(wq[o, i]) · scale[o] + ∑ᵣ A[o, r] · B[r, i]` and computes
  `out[b, s, o] = ∑ᵢ x[b, s, i] · W[o, i] + bias[o]`. The kernel flattens the activations to rows, and for each
  output entry starts an accumulator at the low-rank part in factored form, `∑ᵣ (∑ᵢ x[m, i] · B[r, i]) · A[o, r]`,
  adds the dequantized product one tile of 1024 input features at a time, adds the bias after the last tile, and
  reshapes the rows back. The two agree by distributing `x[m, i]` over the two summands of `W[o, i]`, exchanging
  the two sums of the low-rank part, and cutting the sum over the 4096 input features into its four tiles. On
  the extended reals those steps need every number involved to be finite, which is what the precondition gives:
  the float inputs are real numbers, and an integer read as a float is one too.

  The frames of the two kernel programs are the generated frame certificates; the reference's frame is its run
  with the result dropped; the ideal pass rewrote nothing, so the kernel's idealization is its own text.
-/
import proofs.«156089_j46007689674786_2_alg».proof.Defs
import proofs.«156089_j46007689674786_2_alg».proof.Proof.Gen.Kernel
import proofs.«156089_j46007689674786_2_alg».proof.Proof.Gen.Kernel.Frame
import proofs.«156089_j46007689674786_2_alg».proof.Proof.Gen.KernelIdeal
import proofs.«156089_j46007689674786_2_alg».proof.Proof.Gen.KernelIdeal.Frame
import proofs.«156089_j46007689674786_2_alg».proof.Proof.Gen.ReferenceIdeal
import proofs.«156089_j46007689674786_2_alg».proof.Proof.Gen.ReferenceIdeal.Run
import proofs.«156089_j46007689674786_2_alg».proof.Proof.Gen.ReferenceIdeal.Read
import proofs.«156089_j46007689674786_2_alg».proof.Proof.Gen.Pre_finite_inputs
import proofs.«156089_j46007689674786_2_alg».proof.Proof.KernelRun
import proofs.«156089_j46007689674786_2_alg».proof.Proof.Bridge
import proofs.«156089_j46007689674786_2_alg».proof.Proof.Finite

noncomputable section

namespace Cert.Proof

open Idealize.ShloMosaic Idealize.SL.Sem

/-- The kernel as printed runs to the end and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments, the idealized kernel ends with its final array at the
    specification's output of the flattened activations, reshaped back, and the reference ends with the same
    array: for finite inputs the reference's composed term is that function of the arguments. -/
theorem algebraic : Cert.algebraic_KernelIdeal_ReferenceIdeal := by
  intro m ρ m' ρ' hpre hagree
  refine ⟨fun c => Cert.KernelIdeal.Chain.result m c, Cert.KernelIdeal.Chain.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f2, f3, f4, _⟩ := Cert.Qlora.Finite.finite_of_pre m hpre c
  rw [(hagree c).1, (hagree c).2.1, (hagree c).2.2.1, (hagree c).2.2.2.1, (hagree c).2.2.2.2.1, (hagree c).2.2.2.2.2]
  rw [Cert.ReferenceIdeal.Read.val_main_v9_eq]
  exact Cert.Qlora.ref_eq_out _ _ _ _ _ _ f0 f2 f3 f4 _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
